-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S100000x128 .f32) (main_arg1 : IVec S2x1600000 32) (main_arg2 : FVec F S128x32 .f32) (main_arg3 : FVec F S32 .f32) (main_arg4 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S_ : Shape := ⟨0, ![]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x32 : Shape := ⟨2, ![1700000, 32]⟩

abbrev nBuf : Space → Nat
  | .hbm => 262
  | .vmem => 6
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S_, .f32⟩
  | 5 => ⟨S1x32, .f32⟩
  | 6 => ⟨S100000x32, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .f32⟩
  | 49 => ⟨S_, .f32⟩
  | 50 => ⟨S100000x32, .f32⟩
  | 51 => ⟨S100000x32, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x32, .f32⟩
  | 61 => ⟨S1700000x32, .f32⟩
  | 62 => ⟨S1700000x32, .f32⟩
  | 63 => ⟨S_, .f32⟩
  | 64 => ⟨S100000x32, .f32⟩
  | 65 => ⟨S1700000x1, .i32⟩
  | 66 => ⟨S100000x32, .f32⟩
  | 67 => ⟨S_, .f32⟩
  | 68 => ⟨S_, .f32⟩
  | 69 => ⟨S_, .f32⟩
  | 70 => ⟨S100000x32, .f32⟩
  | 71 => ⟨S100000x32, .f32⟩
  | 72 => ⟨S100000x32, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x32, .f32⟩
  | 82 => ⟨S1700000x32, .f32⟩
  | 83 => ⟨S1700000x32, .f32⟩
  | 84 => ⟨S_, .f32⟩
  | 85 => ⟨S100000x32, .f32⟩
  | 86 => ⟨S1700000x1, .i32⟩
  | 87 => ⟨S100000x32, .f32⟩
  | 88 => ⟨S_, .f32⟩
  | 89 => ⟨S_, .f32⟩
  | 90 => ⟨S_, .f32⟩
  | 91 => ⟨S100000x32, .f32⟩
  | 92 => ⟨S100000x32, .f32⟩
  | 93 => ⟨S100000x32, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x32, .f32⟩
  | 103 => ⟨S1700000x32, .f32⟩
  | 104 => ⟨S1700000x32, .f32⟩
  | 105 => ⟨S_, .f32⟩
  | 106 => ⟨S100000x32, .f32⟩
  | 107 => ⟨S1700000x1, .i32⟩
  | 108 => ⟨S100000x32, .f32⟩
  | 109 => ⟨S_, .f32⟩
  | 110 => ⟨S_, .f32⟩
  | 111 => ⟨S_, .f32⟩
  | 112 => ⟨S100000x32, .f32⟩
  | 113 => ⟨S100000x32, .f32⟩
  | 114 => ⟨S100000x32, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x32, .f32⟩
  | 124 => ⟨S1700000x32, .f32⟩
  | 125 => ⟨S1700000x32, .f32⟩
  | 126 => ⟨S_, .f32⟩
  | 127 => ⟨S100000x32, .f32⟩
  | _ => ⟨S100000x128, .f32⟩

abbrev hbmTy0_1 (i : Nat) : BufTy := match i % 128 with
  | 0 => ⟨S1700000x1, .i32⟩
  | 1 => ⟨S100000x32, .f32⟩
  | 2 => ⟨S_, .f32⟩
  | 3 => ⟨S_, .f32⟩
  | 4 => ⟨S_, .f32⟩
  | 5 => ⟨S100000x32, .f32⟩
  | 6 => ⟨S100000x32, .f32⟩
  | 7 => ⟨S100000x32, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x32, .f32⟩
  | 17 => ⟨S1700000x32, .f32⟩
  | 18 => ⟨S1700000x32, .f32⟩
  | 19 => ⟨S_, .f32⟩
  | 20 => ⟨S100000x32, .f32⟩
  | 21 => ⟨S1700000x1, .i32⟩
  | 22 => ⟨S100000x32, .f32⟩
  | 23 => ⟨S_, .f32⟩
  | 24 => ⟨S_, .f32⟩
  | 25 => ⟨S_, .f32⟩
  | 26 => ⟨S100000x32, .f32⟩
  | 27 => ⟨S100000x32, .f32⟩
  | 28 => ⟨S100000x32, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x32, .f32⟩
  | 38 => ⟨S1700000x32, .f32⟩
  | 39 => ⟨S1700000x32, .f32⟩
  | 40 => ⟨S_, .f32⟩
  | 41 => ⟨S100000x32, .f32⟩
  | 42 => ⟨S1700000x1, .i32⟩
  | 43 => ⟨S100000x32, .f32⟩
  | 44 => ⟨S_, .f32⟩
  | 45 => ⟨S_, .f32⟩
  | 46 => ⟨S_, .f32⟩
  | 47 => ⟨S100000x32, .f32⟩
  | 48 => ⟨S100000x32, .f32⟩
  | 49 => ⟨S100000x32, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x32, .f32⟩
  | 59 => ⟨S1700000x32, .f32⟩
  | 60 => ⟨S1700000x32, .f32⟩
  | 61 => ⟨S_, .f32⟩
  | 62 => ⟨S100000x32, .f32⟩
  | 63 => ⟨S1700000x1, .i32⟩
  | 64 => ⟨S100000x32, .f32⟩
  | 65 => ⟨S_, .f32⟩
  | 66 => ⟨S_, .f32⟩
  | 67 => ⟨S_, .f32⟩
  | 68 => ⟨S100000x32, .f32⟩
  | 69 => ⟨S100000x32, .f32⟩
  | 70 => ⟨S100000x32, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x32, .f32⟩
  | 80 => ⟨S1700000x32, .f32⟩
  | 81 => ⟨S1700000x32, .f32⟩
  | 82 => ⟨S_, .f32⟩
  | 83 => ⟨S100000x32, .f32⟩
  | 84 => ⟨S1700000x1, .i32⟩
  | 85 => ⟨S100000x32, .f32⟩
  | 86 => ⟨S_, .f32⟩
  | 87 => ⟨S_, .f32⟩
  | 88 => ⟨S_, .f32⟩
  | 89 => ⟨S100000x32, .f32⟩
  | 90 => ⟨S100000x32, .f32⟩
  | 91 => ⟨S100000x32, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000x32, .f32⟩
  | 101 => ⟨S1700000x32, .f32⟩
  | 102 => ⟨S1700000x32, .f32⟩
  | 103 => ⟨S_, .f32⟩
  | 104 => ⟨S100000x32, .f32⟩
  | 105 => ⟨S1700000x1, .i32⟩
  | 106 => ⟨S100000x32, .f32⟩
  | 107 => ⟨S_, .f32⟩
  | 108 => ⟨S_, .f32⟩
  | 109 => ⟨S_, .f32⟩
  | 110 => ⟨S100000x32, .f32⟩
  | 111 => ⟨S100000x32, .f32⟩
  | 112 => ⟨S100000x32, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x32, .f32⟩
  | 122 => ⟨S1700000x32, .f32⟩
  | 123 => ⟨S1700000x32, .f32⟩
  | 124 => ⟨S_, .f32⟩
  | 125 => ⟨S100000x32, .f32⟩
  | 126 => ⟨S1700000x1, .i32⟩
  | 127 => ⟨S100000x32, .f32⟩
  | _ => ⟨S100000x128, .f32⟩

abbrev hbmTy0_2 (i : Nat) : BufTy := match i % 128 with
  | 0 => ⟨S_, .f32⟩
  | 1 => ⟨S_, .f32⟩
  | 2 => ⟨S_, .f32⟩
  | 3 => ⟨S100000x32, .f32⟩
  | 4 => ⟨S100000x32, .f32⟩
  | 5 => ⟨S100000x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_18 : Ref sig .tc := ⟨.hbm, 115, rfl⟩
abbrev main_v88 : Ref sig .tc := ⟨.hbm, 116, rfl⟩
abbrev main_v89 : Ref sig .tc := ⟨.hbm, 117, rfl⟩
abbrev main_c_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_21 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_22 : Ref sig .tc := ⟨.hbm, 136, rfl⟩
abbrev main_v105 : Ref sig .tc := ⟨.hbm, 137, rfl⟩
abbrev main_v106 : Ref sig .tc := ⟨.hbm, 138, rfl⟩
abbrev main_c_23 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_24 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_25 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_c_26 : Ref sig .tc := ⟨.hbm, 157, rfl⟩
abbrev main_v122 : Ref sig .tc := ⟨.hbm, 158, rfl⟩
abbrev main_v123 : Ref sig .tc := ⟨.hbm, 159, rfl⟩
abbrev main_c_27 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_28 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_29 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_c_30 : Ref sig .tc := ⟨.hbm, 178, rfl⟩
abbrev main_v139 : Ref sig .tc := ⟨.hbm, 179, rfl⟩
abbrev main_v140 : Ref sig .tc := ⟨.hbm, 180, rfl⟩
abbrev main_c_31 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_32 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_33 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_c_34 : Ref sig .tc := ⟨.hbm, 199, rfl⟩
abbrev main_v156 : Ref sig .tc := ⟨.hbm, 200, rfl⟩
abbrev main_v157 : Ref sig .tc := ⟨.hbm, 201, rfl⟩
abbrev main_c_35 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_36 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_37 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_c_38 : Ref sig .tc := ⟨.hbm, 220, rfl⟩
abbrev main_v173 : Ref sig .tc := ⟨.hbm, 221, rfl⟩
abbrev main_v174 : Ref sig .tc := ⟨.hbm, 222, rfl⟩
abbrev main_c_39 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_40 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_cst_41 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_c_42 : Ref sig .tc := ⟨.hbm, 241, rfl⟩
abbrev main_v190 : Ref sig .tc := ⟨.hbm, 242, rfl⟩
abbrev main_v191 : Ref sig .tc := ⟨.hbm, 243, rfl⟩
abbrev main_c_43 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_44 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_45 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x32 : S_.BroadcastsInDim S100000x32 (![] : Fin 0 → Fin S100000x32.rank)
  bcast_S1700000x1_S1700000x32_0_1 : S1700000x1.BroadcastsInDim S1700000x32 (![0, 1] : Fin 2 → Fin S1700000x32.rank)
  dot_S10000x128_S128x32_S10000x32_1_0_0_1_n_n_wf : DotDims.WF S10000x128 S128x32 S10000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S_ : Shape := ⟨0, ![]⟩
abbrev S100000x32 : Shape := ⟨2, ![100000, 32]⟩
abbrev S1x32 : Shape := ⟨2, ![1, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x32 : Shape := ⟨2, ![1700000, 32]⟩

abbrev nBuf : Space → Nat
  | .hbm => 264
  | .vmem => 0
  | .smem => 0
  | _ => 0

abbrev hbmTy0_0 (i : Nat) : BufTy := match i % 128 with
  | 0 => ⟨S100000x128, .f32⟩
  | 1 => ⟨S2x1600000, .i32⟩
  | 2 => ⟨S128x32, .f32⟩
  | 3 => ⟨S32, .f32⟩
  | 4 => ⟨S_, .f32⟩
  | 5 => ⟨S100000x32, .f32⟩
  | 6 => ⟨S1x32, .f32⟩
  | 7 => ⟨S100000x32, .f32⟩
  | 8 => ⟨S100000x32, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S_, .f32⟩
  | 51 => ⟨S_, .f32⟩
  | 52 => ⟨S100000x32, .f32⟩
  | 53 => ⟨S100000x32, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x32, .f32⟩
  | 63 => ⟨S1700000x32, .f32⟩
  | 64 => ⟨S1700000x32, .f32⟩
  | 65 => ⟨S_, .f32⟩
  | 66 => ⟨S100000x32, .f32⟩
  | 67 => ⟨S1700000x1, .i32⟩
  | 68 => ⟨S100000x32, .f32⟩
  | 69 => ⟨S_, .f32⟩
  | 70 => ⟨S_, .f32⟩
  | 71 => ⟨S_, .f32⟩
  | 72 => ⟨S100000x32, .f32⟩
  | 73 => ⟨S100000x32, .f32⟩
  | 74 => ⟨S100000x32, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x32, .f32⟩
  | 84 => ⟨S1700000x32, .f32⟩
  | 85 => ⟨S1700000x32, .f32⟩
  | 86 => ⟨S_, .f32⟩
  | 87 => ⟨S100000x32, .f32⟩
  | 88 => ⟨S1700000x1, .i32⟩
  | 89 => ⟨S100000x32, .f32⟩
  | 90 => ⟨S_, .f32⟩
  | 91 => ⟨S_, .f32⟩
  | 92 => ⟨S_, .f32⟩
  | 93 => ⟨S100000x32, .f32⟩
  | 94 => ⟨S100000x32, .f32⟩
  | 95 => ⟨S100000x32, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x32, .f32⟩
  | 105 => ⟨S1700000x32, .f32⟩
  | 106 => ⟨S1700000x32, .f32⟩
  | 107 => ⟨S_, .f32⟩
  | 108 => ⟨S100000x32, .f32⟩
  | 109 => ⟨S1700000x1, .i32⟩
  | 110 => ⟨S100000x32, .f32⟩
  | 111 => ⟨S_, .f32⟩
  | 112 => ⟨S_, .f32⟩
  | 113 => ⟨S_, .f32⟩
  | 114 => ⟨S100000x32, .f32⟩
  | 115 => ⟨S100000x32, .f32⟩
  | 116 => ⟨S100000x32, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x32, .f32⟩
  | 126 => ⟨S1700000x32, .f32⟩
  | 127 => ⟨S1700000x32, .f32⟩
  | _ => ⟨S100000x128, .f32⟩

abbrev hbmTy0_1 (i : Nat) : BufTy := match i % 128 with
  | 0 => ⟨S_, .f32⟩
  | 1 => ⟨S100000x32, .f32⟩
  | 2 => ⟨S1700000x1, .i32⟩
  | 3 => ⟨S100000x32, .f32⟩
  | 4 => ⟨S_, .f32⟩
  | 5 => ⟨S_, .f32⟩
  | 6 => ⟨S_, .f32⟩
  | 7 => ⟨S100000x32, .f32⟩
  | 8 => ⟨S100000x32, .f32⟩
  | 9 => ⟨S100000x32, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x32, .f32⟩
  | 19 => ⟨S1700000x32, .f32⟩
  | 20 => ⟨S1700000x32, .f32⟩
  | 21 => ⟨S_, .f32⟩
  | 22 => ⟨S100000x32, .f32⟩
  | 23 => ⟨S1700000x1, .i32⟩
  | 24 => ⟨S100000x32, .f32⟩
  | 25 => ⟨S_, .f32⟩
  | 26 => ⟨S_, .f32⟩
  | 27 => ⟨S_, .f32⟩
  | 28 => ⟨S100000x32, .f32⟩
  | 29 => ⟨S100000x32, .f32⟩
  | 30 => ⟨S100000x32, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x32, .f32⟩
  | 40 => ⟨S1700000x32, .f32⟩
  | 41 => ⟨S1700000x32, .f32⟩
  | 42 => ⟨S_, .f32⟩
  | 43 => ⟨S100000x32, .f32⟩
  | 44 => ⟨S1700000x1, .i32⟩
  | 45 => ⟨S100000x32, .f32⟩
  | 46 => ⟨S_, .f32⟩
  | 47 => ⟨S_, .f32⟩
  | 48 => ⟨S_, .f32⟩
  | 49 => ⟨S100000x32, .f32⟩
  | 50 => ⟨S100000x32, .f32⟩
  | 51 => ⟨S100000x32, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x32, .f32⟩
  | 61 => ⟨S1700000x32, .f32⟩
  | 62 => ⟨S1700000x32, .f32⟩
  | 63 => ⟨S_, .f32⟩
  | 64 => ⟨S100000x32, .f32⟩
  | 65 => ⟨S1700000x1, .i32⟩
  | 66 => ⟨S100000x32, .f32⟩
  | 67 => ⟨S_, .f32⟩
  | 68 => ⟨S_, .f32⟩
  | 69 => ⟨S_, .f32⟩
  | 70 => ⟨S100000x32, .f32⟩
  | 71 => ⟨S100000x32, .f32⟩
  | 72 => ⟨S100000x32, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x32, .f32⟩
  | 82 => ⟨S1700000x32, .f32⟩
  | 83 => ⟨S1700000x32, .f32⟩
  | 84 => ⟨S_, .f32⟩
  | 85 => ⟨S100000x32, .f32⟩
  | 86 => ⟨S1700000x1, .i32⟩
  | 87 => ⟨S100000x32, .f32⟩
  | 88 => ⟨S_, .f32⟩
  | 89 => ⟨S_, .f32⟩
  | 90 => ⟨S_, .f32⟩
  | 91 => ⟨S100000x32, .f32⟩
  | 92 => ⟨S100000x32, .f32⟩
  | 93 => ⟨S100000x32, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x32, .f32⟩
  | 103 => ⟨S1700000x32, .f32⟩
  | 104 => ⟨S1700000x32, .f32⟩
  | 105 => ⟨S_, .f32⟩
  | 106 => ⟨S100000x32, .f32⟩
  | 107 => ⟨S1700000x1, .i32⟩
  | 108 => ⟨S100000x32, .f32⟩
  | 109 => ⟨S_, .f32⟩
  | 110 => ⟨S_, .f32⟩
  | 111 => ⟨S_, .f32⟩
  | 112 => ⟨S100000x32, .f32⟩
  | 113 => ⟨S100000x32, .f32⟩
  | 114 => ⟨S100000x32, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x32, .f32⟩
  | 124 => ⟨S1700000x32, .f32⟩
  | 125 => ⟨S1700000x32, .f32⟩
  | 126 => ⟨S_, .f32⟩
  | 127 => ⟨S100000x32, .f32⟩
  | _ => ⟨S100000x128, .f32⟩

abbrev hbmTy0_2 (i : Nat) : BufTy := match i % 128 with
  | 0 => ⟨S1700000x1, .i32⟩
  | 1 => ⟨S100000x32, .f32⟩
  | 2 => ⟨S_, .f32⟩
  | 3 => ⟨S_, .f32⟩
  | 4 => ⟨S_, .f32⟩
  | 5 => ⟨S100000x32, .f32⟩
  | 6 => ⟨S100000x32, .f32⟩
  | 7 => ⟨S100000x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_18 : Ref sig .tc := ⟨.hbm, 117, rfl⟩
abbrev main_v90 : Ref sig .tc := ⟨.hbm, 118, rfl⟩
abbrev main_v91 : Ref sig .tc := ⟨.hbm, 119, rfl⟩
abbrev main_c_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_20 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_22 : Ref sig .tc := ⟨.hbm, 138, rfl⟩
abbrev main_v107 : Ref sig .tc := ⟨.hbm, 139, rfl⟩
abbrev main_v108 : Ref sig .tc := ⟨.hbm, 140, rfl⟩
abbrev main_c_23 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_24 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_25 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_26 : Ref sig .tc := ⟨.hbm, 159, rfl⟩
abbrev main_v124 : Ref sig .tc := ⟨.hbm, 160, rfl⟩
abbrev main_v125 : Ref sig .tc := ⟨.hbm, 161, rfl⟩
abbrev main_c_27 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_28 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_29 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_c_30 : Ref sig .tc := ⟨.hbm, 180, rfl⟩
abbrev main_v141 : Ref sig .tc := ⟨.hbm, 181, rfl⟩
abbrev main_v142 : Ref sig .tc := ⟨.hbm, 182, rfl⟩
abbrev main_c_31 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_32 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_33 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_c_34 : Ref sig .tc := ⟨.hbm, 201, rfl⟩
abbrev main_v158 : Ref sig .tc := ⟨.hbm, 202, rfl⟩
abbrev main_v159 : Ref sig .tc := ⟨.hbm, 203, rfl⟩
abbrev main_c_35 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_36 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_37 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_c_38 : Ref sig .tc := ⟨.hbm, 222, rfl⟩
abbrev main_v175 : Ref sig .tc := ⟨.hbm, 223, rfl⟩
abbrev main_v176 : Ref sig .tc := ⟨.hbm, 224, rfl⟩
abbrev main_c_39 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_40 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_41 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_c_42 : Ref sig .tc := ⟨.hbm, 243, rfl⟩
abbrev main_v192 : Ref sig .tc := ⟨.hbm, 244, rfl⟩
abbrev main_v193 : Ref sig .tc := ⟨.hbm, 245, rfl⟩
abbrev main_c_43 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_44 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_45 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x32 : S_.BroadcastsInDim S100000x32 (![] : Fin 0 → Fin S100000x32.rank)
  bcast_S1700000x1_S1700000x32_0_1 : S1700000x1.BroadcastsInDim S1700000x32 (![0, 1] : Fin 2 → Fin S1700000x32.rank)
  dot_S100000x128_S128x32_S100000x32_1_0_0_1_n_n_wf : DotDims.WF S100000x128 S128x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibWritesOutside.lean ====
/-
  Host operations that write ONE buffer, outside a kept list.

  Every StableHLO line writes exactly its own result buffer. When that buffer lies outside a list `K` of references,
  the line leaves each reference of `K` alone; a whole straight line of such operations therefore returns every
  reference of `K` at the contents it started with, and none of its operations writes a reference of `K`.
  Stated once for a list of operations, this replaces one inequality of references per (operation, kept reference)
  pair by one membership test per operation.
-/
import Idealize.ShloMosaic.Lib.StableHlo.Run

namespace Idealize.ShloMosaic.StableHlo

open TcCoe

variable {τ : Topo} {sig : RefSig} {Val : EltTy → Type}

/-- The operation writes exactly one TensorCore reference, and that reference is not in `K`. -/
def WritesOutside (K : List (Ref sig .tc)) (op : HloOp τ sig Val) : Prop :=
  ∃ y : Ref sig .tc, op.writes = {Proc.devRef (τ := τ) .tc y} ∧ y ∉ K

/-- Such an operation writes no reference of `K`. -/
theorem WritesOutside.not_mem {K : List (Ref sig .tc)} {op : HloOp τ sig Val} (h : WritesOutside K op)
    {r : Ref sig .tc} (hr : r ∈ K) : Proc.devRef (τ := τ) .tc r ∉ op.writes := by
  obtain ⟨y, hw, hy⟩ := h
  rw [hw, Finset.mem_singleton]
  exact devRef_ne_of_ne fun e => hy (e ▸ hr)

/-- In a line of such operations, no operation writes a reference of `K`. -/
theorem not_mem_writes_of_forall {K : List (Ref sig .tc)} {ops : List (HloOp τ sig Val)}
    (h : ops.Forall (WritesOutside K)) {op : HloOp τ sig Val} (hop : op ∈ ops) {r : Ref sig .tc} (hr : r ∈ K) :
    Proc.devRef (τ := τ) .tc r ∉ op.writes :=
  ((List.forall_iff_forall_mem.mp h) op hop).not_mem hr

/-- A line of such operations returns every reference of `K` at the contents it started with. -/
theorem after_of_writesOutside {K : List (Ref sig .tc)} {ops : List (HloOp τ sig Val)}
    (h : ops.Forall (WritesOutside K)) (V : Valuation τ sig Val) {r : Ref sig .tc} (hr : r ∈ K) :
    after ops V (Proc.devRef .tc r) = V (Proc.devRef .tc r) :=
  after_of_forall_not_mem ops V fun _ hop => not_mem_writes_of_forall h hop hr

/-- Two lines of such operations, one after the other, are one. -/
theorem forall_writesOutside_append {K : List (Ref sig .tc)} {l₁ l₂ : List (HloOp τ sig Val)}
    (h₁ : l₁.Forall (WritesOutside K)) (h₂ : l₂.Forall (WritesOutside K)) : (l₁ ++ l₂).Forall (WritesOutside K) :=
  List.forall_iff_forall_mem.mpr fun op hop => (List.mem_append.mp hop).elim
    (List.forall_iff_forall_mem.mp h₁ op) (List.forall_iff_forall_mem.mp h₂ op)

/-- One step of a proof over a literal list: the head's witness, then the rest. -/
theorem forall_writesOutside_cons {K : List (Ref sig .tc)} {op : HloOp τ sig Val} {ops : List (HloOp τ sig Val)}
    (y : Ref sig .tc) (hw : op.writes = {Proc.devRef (τ := τ) .tc y}) (hy : y ∉ K) (h : ops.Forall (WritesOutside K)) :
    (op :: ops).Forall (WritesOutside K) :=
  (List.forall_cons _ _ _).mpr ⟨⟨y, hw, hy⟩, h⟩

/-- The same for "allocates nothing": the head by computation, then the rest. -/
theorem forall_fresh_cons {op : HloOp τ sig Val} {ops : List (HloOp τ sig Val)}
    (hf : op.fresh = ∅) (h : ops.Forall fun op => op.fresh = ∅) : (op :: ops).Forall fun op => op.fresh = ∅ :=
  (List.forall_cons _ _ _).mpr ⟨hf, h⟩

end Idealize.ShloMosaic.StableHlo
-- ==== Proof.IdealLines.lean ====
/-
  The host lines around the one region of `Cert.KernelIdeal`'s @main.

  @main is: one reshape (the bias vector laid down as a [1,32] row), the region (the projection kernel over ten row
  blocks), and then 255 host operations in three stretches (18 lines, the three lines of an outlined `where`, 234
  lines) that compute the graph diffusion from the region's output. Here: the contents each buffer holds when the
  region is entered; that @main reduces to the region continued by the later lines; that the later lines touch only
  unscoped TensorCore buffers, allocate nothing, and write neither an argument nor an array the region's windows
  stand on (each line writes its own result buffer, and none of those is an argument, the bias row or the region's
  output); and hence that the arguments are found, and end, at their launch contents.
-/
import proofs.«106899_j27419071218310_1_alg».proof.Proof.Gen.KernelIdeal.Launch
import proofs.«106899_j27419071218310_1_alg».proof.Proof.LibWritesOutside
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Idealize.ShloMosaic.StableHlo (WritesOutside)

variable {F : FTy → Type} [FloatOps F]

variable (m : (ℓ : Loc nD τ sig) → Buf (Elt F) ℓ)

/-! ## The buffers when the region is entered -/

/-- Core `c`'s buffer contents when the region is entered: the launch contents after the one line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev later : List (List (HloOp τ sig (Elt F))) := [hostOps1, hostOps1_1, hostOps1_2]

/-- @main's five arguments. -/
def args : List (Ref sig .tc) := [main_arg0, main_arg1, main_arg2, main_arg3, main_arg4]
/-- The arguments, the bias row and the region's output: what no later line writes. -/
def held : List (Ref sig .tc) := [main_arg0, main_arg1, main_arg2, main_arg3, main_arg4, main_v0, main_v1]

theorem args_sub_held {r : Ref sig .tc} (h : r ∈ args) : r ∈ held := by
  simp only [args, List.mem_cons, List.mem_nil_iff, or_false] at h
  simp only [held, List.mem_cons, List.mem_nil_iff, or_false]
  rcases h with rfl | rfl | rfl | rfl | rfl <;> simp

/-! ## What each line writes -/

/-- The line before the region writes the bias row, no argument. -/
theorem before_outside : (hostOps0 : List (HloOp τ sig (Elt F))).Forall (WritesOutside args) :=
  StableHlo.forall_writesOutside_cons main_v0 rfl (by decide) trivial
theorem before_fresh : (hostOps0 : List (HloOp τ sig (Elt F))).Forall fun op => op.fresh = ∅ :=
  StableHlo.forall_fresh_cons rfl trivial

/-- Each of the first 18 later lines writes its own result buffer: none of the held ones. -/
theorem later1_outside : (hostOps1 : List (HloOp τ sig (Elt F))).Forall (WritesOutside held) := by
  repeat (refine StableHlo.forall_writesOutside_cons _ rfl (by decide) ?_)
  exact trivial
theorem later1_fresh : (hostOps1 : List (HloOp τ sig (Elt F))).Forall fun op => op.fresh = ∅ := by
  repeat (refine StableHlo.forall_fresh_cons rfl ?_)
  exact trivial

/-- So do the three lines of the outlined `where`. -/
theorem later2_outside : (hostOps1_1 : List (HloOp τ sig (Elt F))).Forall (WritesOutside held) := by
  repeat (refine StableHlo.forall_writesOutside_cons _ rfl (by decide) ?_)
  exact trivial
theorem later2_fresh : (hostOps1_1 : List (HloOp τ sig (Elt F))).Forall fun op => op.fresh = ∅ := by
  repeat (refine StableHlo.forall_fresh_cons rfl ?_)
  exact trivial

set_option maxHeartbeats 4000000 in
/-- And the last 234. -/
theorem later3_outside : (hostOps1_2 : List (HloOp τ sig (Elt F))).Forall (WritesOutside held) := by
  repeat (refine StableHlo.forall_writesOutside_cons _ rfl (by decide) ?_)
  exact trivial
set_option maxHeartbeats 4000000 in
theorem later3_fresh : (hostOps1_2 : List (HloOp τ sig (Elt F))).Forall fun op => op.fresh = ∅ := by
  repeat (refine StableHlo.forall_fresh_cons rfl ?_)
  exact trivial

/-- All the later lines as one line. -/
theorem later_outside : (later (F := F)).flatten.Forall (WritesOutside held) := by
  show (hostOps1 ++ (hostOps1_1 ++ (hostOps1_2 ++ []))).Forall (WritesOutside held)
  exact StableHlo.forall_writesOutside_append later1_outside
    (StableHlo.forall_writesOutside_append later2_outside (StableHlo.forall_writesOutside_append later3_outside trivial))

/-! ## @main around the region -/

/-- @main, holding the unscoped buffers at their launch contents, reduces to the region, entered with them at `V`,
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact before_fresh) main_chain

/-- The later lines touch the pipeline's arrays and the buffers that bypass the region only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp later1_fresh) op hop
  · exact (List.forall_iff_forall_mem.mp later2_fresh) op hop
  · exact (List.forall_iff_forall_mem.mp later3_fresh) op hop

/-- The four arrays the windows stand on are held ones. -/
theorem arr_held : ∀ w, Pipeline.arrRef spec0 w ∈ held := by decide

/-- And they write no array of the pipeline. -/
theorem later_keeps : ∀ ops ∈ (later : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact StableHlo.not_mem_writes_of_forall later1_outside hop (arr_held w)
  · exact StableHlo.not_mem_writes_of_forall later2_outside hop (arr_held w)
  · exact StableHlo.not_mem_writes_of_forall later3_outside hop (arr_held w)

/-! ## The arguments, found and left as launched -/

/-- The line before the region writes no argument: the region finds each as launched. -/
theorem V_arg {r : Ref sig .tc} (hr : r ∈ args) (c : Dev nD) : V m c r = m ((c : Thread nD τ).loc r) := by
  show StableHlo.after (hostOps0 ++ []) (fun b => m (c, b)) (Proc.devRef .tc r) = _
  rw [List.append_nil]
  exact StableHlo.after_of_writesOutside before_outside _ hr

/-- No later line writes an argument: one that is no array of the pipeline ends as launched. -/
theorem later_arg (dats : (p : Fin 1) → (c : Dev nD) → Dat τ (Elt F) Unit ℕ (UR sig nD τ) ℕ (cfgs p) c) (c : Dev nD)
    {r : Ref sig .tc} (hr : r ∈ args) (hne : ∀ w, Pipeline.arrRef spec0 w ≠ r) :
    Pipeline.afterTail₀ cfgs dats 0 (V0 m) later c r = m ((c : Thread nD τ).loc r) := by
  unfold Pipeline.afterTail₀
  rw [StableHlo.after_of_writesOutside later_outside _ (args_sub_held hr), Pipeline.withArrays_of_ne _ c (V0 m c) _ r hne]
  exact V_arg m hr c

end Cert.KernelIdeal.Run

end
-- ==== Proof.IdealBody.lean ====
/-
  The body of the projection kernel, at one grid point.

  On whole staging buffers — the row block of x, the whole of W, the bias row, and the output block — the body loads the
  three inputs whole, computes one value from them (the block product plus the bias row broadcast down the rows: the
  generated skeleton's payload), loads the output buffer without using what it read, and stores the value over the whole
  output block. So it runs to its continuation with the inputs' buffers as they were and the output's buffer at that
  value, whatever the output's buffer held before.
-/
import proofs.«106899_j27419071218310_1_alg».proof.Proof.Gen.KernelIdeal.Launch
import proofs.«106899_j27419071218310_1_alg».proof.Proof.Gen.KernelIdeal.Skeleton
import proofs.«106899_j27419071218310_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each the whole of its block -/

abbrev rX : Rect S10000x128 := Rect.unit (s := S10000x128) ![0, 0] S10000x128.size inb_S10000x128_S10000x128_0_0
abbrev rW : Rect S128x32 := Rect.unit (s := S128x32) ![0, 0] S128x32.size inb_S128x32_S128x32_0_0
abbrev rB : Rect S1x32 := Rect.unit (s := S1x32) ![0, 0] S1x32.size inb_S1x32_S1x32_0_0
abbrev rO : Rect S10000x32 := Rect.unit (s := S10000x32) ![0, 0] S10000x32.size inb_S10000x32_S10000x32_0_0

/-! ## What the body leaves in the output block -/

/-- The output block after the body, from the three input blocks: its one store, of the skeleton's payload at
    the three loads, read back through the block. -/
def projBlock (x : Vec F S10000x128 .f32) (w : Vec F S128x32 .f32) (b : Vec F S1x32 .f32) : Vec F S10000x32 .f32 :=
  View.canon [⟨rO, k0_pay1 (View.ld x rX) (View.ld w rW) (View.ld b rB)⟩]

/-- The one store covers the block. -/
theorem projBlock_cover (p : Vec F S10000x32 .f32) (y : S10000x32.Idx) :
    ∃ pc ∈ ([⟨rO, p⟩] : List (View.Piece (Elt F) S10000x32 .f32)), y ∈ pc.1.set :=
  View.cover_of_tiled [⟨rO, p⟩] S10000x32.size (by rfl) y

/-! ## The body's triple -/

set_option maxHeartbeats 4000000 in
/-- The body on whole staging memrefs, the inputs' at contents `x`, `w`, `b` and the output's at anything, runs to its
    continuation holding the inputs' as they were and the output's at `projBlock x w b`. -/
theorem sound_kernel (c : Dev nD) (E : Set ℕ) (i : grid0.Coords)
    (arg1 : Memref sig .tc .vmem S10000x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S10000x32 .f32) (harg4 : arg4.IsWhole)
    (x : Vec F S10000x128 .f32) (w : Vec F S128x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projBlock_cover _)

end Cert.KernelIdeal.Run

end
-- ==== Proof.IdealFrame.lean ====
/-
  The run of `Cert.KernelIdeal`'s @main: the region's proof data, the body obligation at every grid point, and the frame run
  around the region.

  The region's four windows stand on x (row block t at point t), on W and on the bias row (each whole, fetched once),
  and on the output (row block t written back at point t). The proof data say: each array is what the region finds
  there; after the body at point t each input's buffer holds its block and the output's buffer holds the body's value
  of the three input blocks; the invariant is the class's (the scoped rest and the generator register, untouched).
  The library's frame run then gives every weakly fair execution of @main to the end, with each window's array at what
  the write-backs left and every other unscoped buffer at what the later host lines leave from that.
-/
import proofs.«106899_j27419071218310_1_alg».proof.Proof.IdealLines
import proofs.«106899_j27419071218310_1_alg».proof.Proof.IdealBody
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the region-entry one and whose body leaves the block in
    place. Window 0: the row block of x. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1: W. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2: the bias row. -/
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projBlock (iblk m c 0 t) (iblk m c 1 t) (iblk m c 2 t)
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

/-- What the body leaves, window by window. -/
theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) :
    (dats m 0 c).after 3 t = projBlock (iblk m c 0 t) (iblk m c 1 t) (iblk m c 2 t) := by dsimp only [dats]

/-- Each input's current staging buffer holds its block at every point. -/
theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

-- the frame run's implicit arguments are found by unifying its conclusion with this one, which takes unfolding plain
-- definitions in a metavariable's type
set_option backward.isDefEq.respectTransparency.types false in
/-- From any memory with zero counters every weakly fair execution of @main on the TensorCores terminates, and every
    final state has each array of the pipeline at what the write-backs left and every other unscoped buffer as the
    later lines leave it. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-! ## The run's post read at the result and at the arguments -/

/-- In a final state of the run: the result buffer holds what the later lines compute from the region's exit contents,
    and every argument its launch contents — x and W as arrays of input windows, which the region only reads; the edge
    list, the bias vector and the diffusion time as buffers that bypass the region and that no later line writes. -/
theorem run_post (r : PUnit × MemSt nD τ sig (Elt F))
    (h : Pipeline.FramePost cfgs (dats m) 0 (Pipeline.afterTail₀ cfgs (dats m) 0 (V0 m) later) r) (c : Dev nD) :
    r.2.mem ((c.tc : Thread nD τ).loc main_v206) = Pipeline.afterTail₀ cfgs (dats m) 0 (V0 m) later c main_v206
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c).2 main_v206 (Pipeline.mem_restRefs_of main_v206 (by decide) (by decide)),
   ((h c).1 0).trans ((((dats m 0 c).arrAt_in 0 rfl _).trans (A_eq m c 0)).trans (V_arg m (by decide) c)),
   ((h c).2 main_arg1 (Pipeline.mem_restRefs_of main_arg1 (by decide) (by decide))).trans (later_arg m (dats m) c (by decide) (by decide)),
   ((h c).1 1).trans ((((dats m 0 c).arrAt_in 1 rfl _).trans (A_eq m c 1)).trans (V_arg m (by decide) c)),
   ((h c).2 main_arg3 (Pipeline.mem_restRefs_of main_arg3 (by decide) (by decide))).trans (later_arg m (dats m) c (by decide) (by decide)),
   ((h c).2 main_arg4 (Pipeline.mem_restRefs_of main_arg4 (by decide) (by decide))).trans (later_arg m (dats m) c (by decide) (by decide))⟩

/-- The frame: every weakly fair execution of @main terminates, faults nowhere, and leaves the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (run_post m r h c).2) (run_main m ρ)

end Cert.KernelIdeal.Run

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.IdealPayload.lean ====
/-
  The projection kernel's value at one entry of a block, at the ideal instance.

  From the three blocks it loads — a [10000,128] row block of x, the [128,32] matrix W and the [1,32] bias row — the body
  computes the block product into the zero accumulator, the operands first cut to bf16 (at the ideal instance a change
  of format is the identity), and adds the bias row broadcast down the rows. So its entry (p, q) is
  the sum over k of x (p, k) · W (k, q), plus the bias at (0, q).
-/
import proofs.«106899_j27419071218310_1_alg».proof.Proof.Gen.KernelIdeal.Skeleton
import proofs.«106899_j27419071218310_1_alg».proof.Proof.LibMatmulAt
import Idealize.ShloMosaic.Lib.Pipeline.Value
import Idealize.ShloMosaic.Lib.ValueLayout

noncomputable section

open scoped BigOperators

namespace Cert.KernelIdeal.Run

open Cert.KernelIdeal Cert.KernelIdeal.Gen
open Idealize.ShloMosaic Idealize.ShloMosaic.ValueIdx

/-- The block product's dimension numbers: the left operand's second axis against the right operand's first. -/
abbrev blockDot : DotDims S10000x128 S128x32 S10000x32 := dot_S10000x128_S128x32_S10000x32_1_0_0_1_n_n

/-! Where the product's two operand indices sit: the left one reads the result's row and the contraction position,
    the right one the contraction position and the result's column. -/

theorem blockDot_l0 (i : S10000x32.Idx) (q : blockDot.contr.Idx) : (blockDot.lhsIdx i q 0).val = (i 0).val := by
  unfold DotDims.lhsIdx
  rw [dif_neg (show ¬(0 : Fin S10000x128.rank) ∈ blockDot.lhsBatch by decide),
    dif_pos (show (0 : Fin S10000x128.rank) ∈ blockDot.lhsNonContracting by decide)]
  rfl
theorem blockDot_l1 (i : S10000x32.Idx) (q : blockDot.contr.Idx) : (blockDot.lhsIdx i q 1).val = (q ⟨0, by decide⟩).val :=
  blockDot.lhsIdx_val_of_single rfl i q
theorem blockDot_r0 (i : S10000x32.Idx) (q : blockDot.contr.Idx) : (blockDot.rhsIdx i q 0).val = (q ⟨0, by decide⟩).val :=
  blockDot.rhsIdx_val_of_single rfl i q
theorem blockDot_r1 (i : S10000x32.Idx) (q : blockDot.contr.Idx) : (blockDot.rhsIdx i q 1).val = (i 1).val := by
  unfold DotDims.rhsIdx
  rw [dif_neg (show ¬(1 : Fin S128x32.rank) ∈ blockDot.rhsBatch by decide),
    dif_pos (show (1 : Fin S128x32.rank) ∈ blockDot.rhsNonContracting by decide)]
  rfl

/-- The body's value at entry (p, q) of the block. -/
theorem pay_apply (x : Vec Ideal S10000x128 .f32) (w : Vec Ideal S128x32 .f32) (b : Vec Ideal S1x32 .f32)
    (p : Fin 10000) (q : Fin 32) :
    k0_pay1 (F := Ideal) x w b (ix2 p q) = (∑ k : Fin 128, x (ix2 p k) * w (ix2 k q)) + b (ix2 (0 : Fin 1) q) := by
  unfold k0_pay1
  show matmul (F := Ideal) blockDot none (truncf (F := Ideal) .bf16 x bitsLt_bf16_f32) (truncf (F := Ideal) .bf16 w bitsLt_bf16_f32)
        (constant (F := Ideal) S10000x32 .f32 0x00000000#32) (ix2 p q)
      + broadcastTo S10000x32 (shapeCast S1x32 b shapeCasts_S1x32_S1x32) broadcasts_S1x32_S10000x32 (ix2 p q) = _
  rw [shapeCast_self, broadcastTo_1b_ab_apply,
    MatmulAt.matmul_zero_ix2 blockDot rfl rfl blockDot_l0 blockDot_l1 blockDot_r0 blockDot_r1]
  rfl

end Cert.KernelIdeal.Run

end
-- ==== Proof.Spec.lean ====
/-
  The linear projection both programs start with, as one function of the argument arrays.

  Entry (r, q) of the projection of x : [100000,128] by W : [128,32] with bias b : [32] is the row r of x against the
  column q of W, plus b at q — over the extended reals, where a finite sum does not depend on the order of its terms.
-/
import Idealize.ShloMosaic.PureOps.Ideal
import Idealize.ShloMosaic.Lib.ValueIdx

noncomputable section

open scoped BigOperators

namespace Cert.Spec

open Idealize.ShloMosaic Idealize.ShloMosaic.ValueIdx

/-- x·W + b, entry by entry. -/
def proj (X : (⟨2, ![100000, 128]⟩ : Shape).Idx → EReal) (W : (⟨2, ![128, 32]⟩ : Shape).Idx → EReal)
    (b : (⟨1, ![32]⟩ : Shape).Idx → EReal) : (⟨2, ![100000, 32]⟩ : Shape).Idx → EReal :=
  fun i => (∑ k : Fin 128, X (ix2 (⟨(i 0).val, (i 0).isLt⟩ : Fin 100000) k) * W (ix2 k (⟨(i 1).val, (i 1).isLt⟩ : Fin 32)))
    + b (ix1 (⟨(i 1).val, (i 1).isLt⟩ : Fin 32))

end Cert.Spec

end
-- ==== Proof.IdealValue.lean ====
/-
  What the region leaves in its output array, at the ideal instance: the projection of the arrays it finds.

  Point t of the grid reads rows 10000·t … 10000·t + 9999 of x, all of W and the bias row, and writes back rows
  10000·t … 10000·t + 9999 of the output; the ten row blocks tile the [100000, 32] array. Entry (r, q) of a written
  block is the body's value at the block's own coordinates, and x's block there is x's rows at the same offset, so the
  array ends, at every (r, q), at  ∑ k, x (r, k) · W (k, q) + bias (0, q).
-/
import proofs.«106899_j27419071218310_1_alg».proof.Proof.IdealFrame
import proofs.«106899_j27419071218310_1_alg».proof.Proof.IdealPayload
import proofs.«106899_j27419071218310_1_alg».proof.Proof.Spec
import Idealize.ShloMosaic.Lib.ValueLayout
import Idealize.ShloMosaic.Lib.StableHlo.Run
import Idealize.ShloMosaic.Lib.Pipeline.Value

set_option maxRecDepth 16384

noncomputable section

open scoped BigOperators

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The one host line before the region lays the bias vector down as a [1,32] row: the region finds that row. -/
theorem bias_row (c : Dev nD) :
    (V m c main_v0 : S1x32.Idx → EReal) = shapeCast S1x32 (m ((c : Thread nD τ).loc main_arg3)) shapeCasts_S32_S1x32 := by
  show StableHlo.after (hostOps0 ++ []) (fun b => m (c, b)) (Proc.devRef .tc main_v0) = _
  rw [List.append_nil]
  dsimp only [hostOps0]
  after_results
  rfl

theorem zeros2 : (![0, 0] : Fin 2 → Nat) = fun _ => 0 := funext fun a => by fin_cases a <;> rfl

/-- The printed index maps, decided over the grid: x's window and the output's move down the rows together, one block
    per point; W's and the bias row's stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the projection of the arrays as the region finds them. -/
theorem flushed_eq (c : Dev nD) (t : Fin cfg0.N) :
    (dats m 0 c).flushed 3 t
      = ((cfg0.win 3).blk t).view.read (Elt Ideal) (Cert.Spec.proj (V m c main_arg0) (V m c main_arg2) (m ((c : Thread nD τ).loc main_arg3))) := by
  show (cfg0.win 3).cut (grid0.coords t) ((dats m 0 c).after 3 t) = _
  rw [after_o]
  unfold projBlock
  rw [View.canon_unit_zero zeros2]
  simp only [View.ld_unit_zero (S := S10000x128) zeros2, View.ld_unit_zero (S := S128x32) zeros2,
    View.ld_unit_zero (S := S1x32) zeros2]
  obtain ⟨e00, e01, e10, e11, e20, e21, e30, e31⟩ := idx_facts t
  funext j
  obtain ⟨p, q, rfl⟩ : ∃ (p : Fin 10000) (q : Fin 32), j = ix2 p q := ⟨j 0, j 1, eq_ix2 j⟩
  refine (pay_apply (iblk m c 0 t) (iblk m c 1 t) (iblk m c 2 t) p q).trans ?_
  have hp : p.val < 10000 := p.isLt
  have hq : q.val < 32 := q.isLt
  -- where the output block's entry (p, q) sits in the array: row P, column Q
  have hb : ((cfg0.win 2).blk t).view.emb (ix2 (0 : Fin 1) q)
      = ix2 (0 : Fin 1) (⟨((((cfg0.win 3).blk t).view.emb (ix2 p q)) 1).val, ((((cfg0.win 3).blk t).view.emb (ix2 p q)) 1).isLt⟩ : Fin 32) := by
    funext a; apply Fin.ext
    match a with
    | ⟨0, _⟩ => show win0_2.index t (0 : Fin 2) * 1 + 1 * 0 = 0; omega
    | ⟨1, _⟩ => show win0_2.index t (1 : Fin 2) * 32 + 1 * q.val = win0_3.index t (1 : Fin 2) * 32 + 1 * q.val; omega
  have hx : ∀ k : Fin 128, ((cfg0.win 0).blk t).view.emb (ix2 p k)
      = ix2 (⟨((((cfg0.win 3).blk t).view.emb (ix2 p q)) 0).val, ((((cfg0.win 3).blk t).view.emb (ix2 p q)) 0).isLt⟩ : Fin 100000) k := by
    intro k
    have hk : k.val < 128 := k.isLt
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have hw : ∀ k : Fin 128, ((cfg0.win 1).blk t).view.emb (ix2 k q)
      = ix2 k (⟨((((cfg0.win 3).blk t).view.emb (ix2 p q)) 1).val, ((((cfg0.win 3).blk t).view.emb (ix2 p q)) 1).isLt⟩ : Fin 32) := by
    intro k
    have hk : k.val < 128 := k.isLt
    funext a; apply Fin.ext
    match a with
    | ⟨0, _⟩ => show win0_1.index t (0 : Fin 2) * 128 + 1 * k.val = k.val; omega
    | ⟨1, _⟩ => show win0_1.index t (1 : Fin 2) * 32 + 1 * q.val = win0_3.index t (1 : Fin 2) * 32 + 1 * q.val; omega
  -- each block read is the array read at that row and column
  have e0 : ∀ k : Fin 128, iblk m c 0 t (ix2 p k)
      = V m c main_arg0 (ix2 (⟨((((cfg0.win 3).blk t).view.emb (ix2 p q)) 0).val, ((((cfg0.win 3).blk t).view.emb (ix2 p q)) 0).isLt⟩ : Fin 100000) k) := by
    intro k
    show V m c main_arg0 (((cfg0.win 0).blk t).view.emb (ix2 p k)) = _
    rw [hx k]
  have e1 : ∀ k : Fin 128, iblk m c 1 t (ix2 k q)
      = V m c main_arg2 (ix2 k (⟨((((cfg0.win 3).blk t).view.emb (ix2 p q)) 1).val, ((((cfg0.win 3).blk t).view.emb (ix2 p q)) 1).isLt⟩ : Fin 32)) := by
    intro k
    show V m c main_arg2 (((cfg0.win 1).blk t).view.emb (ix2 k q)) = _
    rw [hw k]
  have e2 : iblk m c 2 t (ix2 (0 : Fin 1) q)
      = m ((c : Thread nD τ).loc main_arg3) (ix1 (⟨((((cfg0.win 3).blk t).view.emb (ix2 p q)) 1).val, ((((cfg0.win 3).blk t).view.emb (ix2 p q)) 1).isLt⟩ : Fin 32)) := by
    show V m c main_v0 (((cfg0.win 2).blk t).view.emb (ix2 (0 : Fin 1) q)) = _
    rw [hb, bias_row, shapeCast_a_1a_apply]
  simp only [e0, e1, e2]
  rfl

/-- An index of the output array is in point `t`'s block iff each coordinate is in the block's range on its axis. -/
theorem mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v1).slice (win0_3.rect t)).set ↔ _
  rw [View.set_slice_whole, Rect.mem_set_unit]
  exact Iff.rfl

/-- Row r of the output is written back by point r / 10000: the ten row blocks tile the array. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := N_0
  have ht : (i 0).val / 10000 < cfg0.N := by rw [hN]; omega
  refine ⟨⟨(i 0).val / 10000, ht⟩, flush0_3 _, ?_⟩
  rw [mem_blk]
  obtain ⟨-, -, -, -, -, -, e30, e31⟩ := idx_facts ⟨(i 0).val / 10000, ht⟩
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, ht⟩ (1 : Fin 2) * 32 ≤ (i 1).val
      ∧ (i 1).val < win0_3.index ⟨(i 0).val / 10000, ht⟩ (1 : Fin 2) * 32 + 32
    rw [e31]; omega

/-- The output array after the region: the projection of the arguments as launched. -/
theorem out_final (c : Dev nD) :
    (dats m 0 c).arrAt 3 cfg0.N = Cert.Spec.proj (m ((c : Thread nD τ).loc main_arg0)) (m ((c : Thread nD τ).loc main_arg2))
      (m ((c : Thread nD τ).loc main_arg3)) := by
  have h := (dats m 0 c).arrAt_eq_of_cover 3 _ (fun t _ => flushed_eq m c t) cover
  rw [V_arg m (by decide : main_arg0 ∈ args) c, V_arg m (by decide : main_arg2 ∈ args) c] at h
  exact h

end Cert.KernelIdeal.Run

end
-- ==== Proof.RefRun.lean ====
/-
  The reference program's run, read as a fold of its operations.

  The reference's @main is a straight line of 259 host operations (the three lines of the outlined `where` standing in
  their call's place): no region, nothing scoped. So every weakly fair execution of it terminates, and every final state
  has each buffer at the fold of the operations' results over the launch contents. The operations are listed here as the
  printed program has them, and @main is that list run in order, by unfolding.
-/
import proofs.«106899_j27419071218310_1_alg».proof.Proof.Gen.ReferenceIdeal
import proofs.«106899_j27419071218310_1_alg».proof.Proof.LibWritesOutside
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 259 operations, in order. -/
abbrev ops : List (HloOp τ sig (Elt F)) :=
  [ binary main_arg0 main_arg2 main_v0 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_arg3 main_v1 (broadcastInDim S1x32 ![1] bcast_S32_S1x32_1 : (⟨S32, .f32⟩ : BufTy).Contents (Elt F) → (⟨S1x32, .f32⟩ : BufTy).Contents (Elt F)),
    unary main_v1 main_v2 (broadcastInDim S100000x32 ![0, 1] bcast_S1x32_S100000x32_0_1 : (⟨S1x32, .f32⟩ : BufTy).Contents (Elt F) → (⟨S100000x32, .f32⟩ : BufTy).Contents (Elt F)),
    binary main_v0 main_v2 main_v3 (addf : (⟨S100000x32, .f32⟩ : BufTy).Contents (Elt F) → (⟨S100000x32, .f32⟩ : BufTy).Contents (Elt F) → (⟨S100000x32, .f32⟩ : BufTy).Contents (Elt F)),
    nullary main_v4 (iotaInDim S100000 32 0),
    unary main_arg1 main_v5 ((extractStridedSlice S1x1600000 ![0, 0] · slices_S2x1600000_S1x1600000_0_0) : (⟨S2x1600000, .i32⟩ : BufTy).Contents (Elt F) → (⟨S1x1600000, .i32⟩ : BufTy).Contents (Elt F)),
    reshape main_v5 main_v6 rfl shapeCasts_S1x1600000_S1600000,
    binary main_v6 main_v4 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v8 ((extractStridedSlice S1x1600000 ![1, 0] · slices_S2x1600000_S1x1600000_1_0) : (⟨S2x1600000, .i32⟩ : BufTy).Contents (Elt F) → (⟨S1x1600000, .i32⟩ : BufTy).Contents (Elt F)),
    reshape main_v8 main_v9 rfl shapeCasts_S1x1600000_S1600000,
    binary main_v9 main_v4 main_v10 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v11 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v12 (broadcastInDim S100000 ![] bcast_S_S100000 : (⟨S_, .f32⟩ : BufTy).Contents (Elt F) → (⟨S100000, .f32⟩ : BufTy).Contents (Elt F)),
    unary main_v10 main_v13 (broadcastInDim S1700000x1 ![0] bcast_S1700000_S1700000x1_0 : (⟨S1700000, .i32⟩ : BufTy).Contents (Elt F) → (⟨S1700000x1, .i32⟩ : BufTy).Contents (Elt F)),
    ternary main_v12 main_v13 main_v11 main_v14 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v15 (broadcastInDim S100000 ![] bcast_S_S100000 : (⟨S_, .f32⟩ : BufTy).Contents (Elt F) → (⟨S100000, .f32⟩ : BufTy).Contents (Elt F)),
    binary main_v14 main_v15 main_v16 (cmpf .ogt : (⟨S100000, .f32⟩ : BufTy).Contents (Elt F) → (⟨S100000, .f32⟩ : BufTy).Contents (Elt F) → (⟨S100000, .i1⟩ : BufTy).Contents (Elt F)),
    unary main_v14 main_v17 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v16) (TRef.of (T := ⟨S100000, .f32⟩) main_v17) (TRef.of (T := ⟨S100000, .f32⟩) main_call0_v1) (TRef.of (T := ⟨S100000, .f32⟩) main_v18) select,
    nullary main_c (constantI S_ 32 0#32),
    unary main_c main_v19 (broadcastInDim S1700000 ![] bcast_S_S1700000 : (⟨S_, .i32⟩ : BufTy).Contents (Elt F) → (⟨S1700000, .i32⟩ : BufTy).Contents (Elt F)),
    binary main_v7 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v21 (broadcastInDim S1700000 ![] bcast_S_S1700000 : (⟨S_, .i32⟩ : BufTy).Contents (Elt F) → (⟨S1700000, .i32⟩ : BufTy).Contents (Elt F)),
    binary main_v7 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v7 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v26 (broadcastInDim S1700000 ![] bcast_S_S1700000 : (⟨S_, .i32⟩ : BufTy).Contents (Elt F) → (⟨S1700000, .i32⟩ : BufTy).Contents (Elt F)),
    binary main_v10 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v28 (broadcastInDim S1700000 ![] bcast_S_S1700000 : (⟨S_, .i32⟩ : BufTy).Contents (Elt F) → (⟨S1700000, .i32⟩ : BufTy).Contents (Elt F)),
    binary main_v10 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v10 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v18 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v32 main_v33 (mulf : (⟨S1700000, .f32⟩ : BufTy).Contents (Elt F) → (⟨S1700000, .f32⟩ : BufTy).Contents (Elt F) → (⟨S1700000, .f32⟩ : BufTy).Contents (Elt F)),
    unary main_v33 main_v34 (broadcastInDim S1700000x1 ![0] bcast_S1700000_S1700000x1_0 : (⟨S1700000, .f32⟩ : BufTy).Contents (Elt F) → (⟨S1700000x1, .f32⟩ : BufTy).Contents (Elt F)),
    unary main_arg4 main_v35 (Host.negf : (⟨S_, .f32⟩ : BufTy).Contents (Elt F) → (⟨S_, .f32⟩ : BufTy).Contents (Elt F)),
    unary main_v35 main_v36 (Host.exp : (⟨S_, .f32⟩ : BufTy).Contents (Elt F) → (⟨S_, .f32⟩ : BufTy).Contents (Elt F)),
    unary main_v36 main_v37 (broadcastInDim S100000x32 ![] bcast_S_S100000x32 : (⟨S_, .f32⟩ : BufTy).Contents (Elt F) → (⟨S100000x32, .f32⟩ : BufTy).Contents (Elt F)),
    binary main_v37 main_v3 main_v38 (mulf : (⟨S100000x32, .f32⟩ : BufTy).Contents (Elt F) → (⟨S100000x32, .f32⟩ : BufTy).Contents (Elt F) → (⟨S100000x32, .f32⟩ : BufTy).Contents (Elt F)),
    nullary main_c_6 (constantI S_ 32 0#32),
    unary main_c_6 main_v39 (broadcastInDim S1700000 ![] bcast_S_S1700000 : (⟨S_, .i32⟩ : BufTy).Contents (Elt F) → (⟨S1700000, .i32⟩ : BufTy).Contents (Elt F)),
    binary main_v7 main_v39 main_v40 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v41 (broadcastInDim S1700000 ![] bcast_S_S1700000 : (⟨S_, .i32⟩ : BufTy).Contents (Elt F) → (⟨S1700000, .i32⟩ : BufTy).Contents (Elt F)),
    binary main_v7 main_v41 main_v42 (addi : (⟨S1700000, .i32⟩ : BufTy).Contents (Elt F) → (⟨S1700000, .i32⟩ : BufTy).Contents (Elt F) → (⟨S1700000, .i32⟩ : BufTy).Contents (Elt F)),
    ternary main_v40 main_v42 main_v7 main_v43 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v43 main_v44 (broadcastInDim S1700000x1 ![0] bcast_S1700000_S1700000x1_0 : (⟨S1700000, .i32⟩ : BufTy).Contents (Elt F) → (⟨S1700000x1, .i32⟩ : BufTy).Contents (Elt F)),
    binary main_v3 main_v44 main_v45 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v46 (broadcastInDim S1700000x32 ![0, 1] bcast_S1700000x1_S1700000x32_0_1 : (⟨S1700000x1, .f32⟩ : BufTy).Contents (Elt F) → (⟨S1700000x32, .f32⟩ : BufTy).Contents (Elt F)),
    binary main_v45 main_v46 main_v47 (mulf : (⟨S1700000x32, .f32⟩ : BufTy).Contents (Elt F) → (⟨S1700000x32, .f32⟩ : BufTy).Contents (Elt F) → (⟨S1700000x32, .f32⟩ : BufTy).Contents (Elt F)),
    nullary main_cst_8 (constant S_ .f32 0x00000000#32),
    unary main_cst_8 main_v48 (broadcastInDim S100000x32 ![] bcast_S_S100000x32 : (⟨S_, .f32⟩ : BufTy).Contents (Elt F) → (⟨S100000x32, .f32⟩ : BufTy).Contents (Elt F)),
    unary main_v10 main_v49 (broadcastInDim S1700000x1 ![0] bcast_S1700000_S1700000x1_0 : (⟨S1700000, .i32⟩ : BufTy).Contents (Elt F) → (⟨S1700000x1, .i32⟩ : BufTy).Contents (Elt F)),
    ternary main_v48 main_v49 main_v47 main_v50 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v36 main_arg4 main_v51 (mulf : (⟨S_, .f32⟩ : BufTy).Contents (Elt F) → (⟨S_, .f32⟩ : BufTy).Contents (Elt F) → (⟨S_, .f32⟩ : BufTy).Contents (Elt F)),
    nullary main_cst_9 (constant S_ .f32 0x3F800000#32),
    binary main_v51 main_cst_9 main_v52 (Host.divf : (⟨S_, .f32⟩ : BufTy).Contents (Elt F) → (⟨S_, .f32⟩ : BufTy).Contents (Elt F) → (⟨S_, .f32⟩ : BufTy).Contents (Elt F)),
    unary main_v52 main_v53 (broadcastInDim S100000x32 ![] bcast_S_S100000x32 : (⟨S_, .f32⟩ : BufTy).Contents (Elt F) → (⟨S100000x32, .f32⟩ : BufTy).Contents (Elt F)),
    binary main_v53 main_v50 main_v54 (mulf : (⟨S100000x32, .f32⟩ : BufTy).Contents (Elt F) → (⟨S100000x32, .f32⟩ : BufTy).Contents (Elt F) → (⟨S100000x32, .f32⟩ : BufTy).Contents (Elt F)),
    binary main_v38 main_v54 main_v55 (addf : (⟨S100000x32, .f32⟩ : BufTy).Contents (Elt F) → (⟨S100000x32, .f32⟩ : BufTy).Contents (Elt F) → (⟨S100000x32, .f32⟩ : BufTy).Contents (Elt F)),
    nullary main_c_10 (constantI S_ 32 0#32),
    unary main_c_10 main_v56 (broadcastInDim S1700000 ![] bcast_S_S1700000 : (⟨S_, .i32⟩ : BufTy).Contents (Elt F) → (⟨S1700000, .i32⟩ : BufTy).Contents (Elt F)),
    binary main_v7 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v58 (broadcastInDim S1700000 ![] bcast_S_S1700000 : (⟨S_, .i32⟩ : BufTy).Contents (Elt F) → (⟨S1700000, .i32⟩ : BufTy).Contents (Elt F)),
    binary main_v7 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v7 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v50 main_v61 main_v62 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v63 (broadcastInDim S1700000x32 ![0, 1] bcast_S1700000x1_S1700000x32_0_1 : (⟨S1700000x1, .f32⟩ : BufTy).Contents (Elt F) → (⟨S1700000x32, .f32⟩ : BufTy).Contents (Elt F)),
    binary main_v62 main_v63 main_v64 (mulf : (⟨S1700000x32, .f32⟩ : BufTy).Contents (Elt F) → (⟨S1700000x32, .f32⟩ : BufTy).Contents (Elt F) → (⟨S1700000x32, .f32⟩ : BufTy).Contents (Elt F)),
    nullary main_cst_12 (constant S_ .f32 0x00000000#32),
    unary main_cst_12 main_v65 (broadcastInDim S100000x32 ![] bcast_S_S100000x32 : (⟨S_, .f32⟩ : BufTy).Contents (Elt F) → (⟨S100000x32, .f32⟩ : BufTy).Contents (Elt F)),
    unary main_v10 main_v66 (broadcastInDim S1700000x1 ![0] bcast_S1700000_S1700000x1_0 : (⟨S1700000, .i32⟩ : BufTy).Contents (Elt F) → (⟨S1700000x1, .i32⟩ : BufTy).Contents (Elt F)),
    ternary main_v65 main_v66 main_v64 main_v67 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v52 main_arg4 main_v68 (mulf : (⟨S_, .f32⟩ : BufTy).Contents (Elt F) → (⟨S_, .f32⟩ : BufTy).Contents (Elt F) → (⟨S_, .f32⟩ : BufTy).Contents (Elt F)),
    nullary main_cst_13 (constant S_ .f32 0x40000000#32),
    binary main_v68 main_cst_13 main_v69 (Host.divf : (⟨S_, .f32⟩ : BufTy).Contents (Elt F) → (⟨S_, .f32⟩ : BufTy).Contents (Elt F) → (⟨S_, .f32⟩ : BufTy).Contents (Elt F)),
    unary main_v69 main_v70 (broadcastInDim S100000x32 ![] bcast_S_S100000x32 : (⟨S_, .f32⟩ : BufTy).Contents (Elt F) → (⟨S100000x32, .f32⟩ : BufTy).Contents (Elt F)),
    binary main_v70 main_v67 main_v71 (mulf : (⟨S100000x32, .f32⟩ : BufTy).Contents (Elt F) → (⟨S100000x32, .f32⟩ : BufTy).Contents (Elt F) → (⟨S100000x32, .f32⟩ : BufTy).Contents (Elt F)),
    binary main_v55 main_v71 main_v72 (addf : (⟨S100000x32, .f32⟩ : BufTy).Contents (Elt F) → (⟨S100000x32, .f32⟩ : BufTy).Contents (Elt F) → (⟨S100000x32, .f32⟩ : BufTy).Contents (Elt F)),
    nullary main_c_14 (constantI S_ 32 0#32),
    unary main_c_14 main_v73 (broadcastInDim S1700000 ![] bcast_S_S1700000 : (⟨S_, .i32⟩ : BufTy).Contents (Elt F) → (⟨S1700000, .i32⟩ : BufTy).Contents (Elt F)),
    binary main_v7 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v75 (broadcastInDim S1700000 ![] bcast_S_S1700000 : (⟨S_, .i32⟩ : BufTy).Contents (Elt F) → (⟨S1700000, .i32⟩ : BufTy).Contents (Elt F)),
    binary main_v7 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v7 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    binary main_v67 main_v78 main_v79 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v80 (broadcastInDim S1700000x32 ![0, 1] bcast_S1700000x1_S1700000x32_0_1 : (⟨S1700000x1, .f32⟩ : BufTy).Contents (Elt F) → (⟨S1700000x32, .f32⟩ : BufTy).Contents (Elt F)),
    binary main_v79 main_v80 main_v81 (mulf : (⟨S1700000x32, .f32⟩ : BufTy).Contents (Elt F) → (⟨S1700000x32, .f32⟩ : BufTy).Contents (Elt F) → (⟨S1700000x32, .f32⟩ : BufTy).Contents (Elt F)),
    nullary main_cst_16 (constant S_ .f32 0x00000000#32),
    unary main_cst_16 main_v82 (broadcastInDim S100000x32 ![] bcast_S_S100000x32 : (⟨S_, .f32⟩ : BufTy).Contents (Elt F) → (⟨S100000x32, .f32⟩ : BufTy).Contents (Elt F)),
    unary main_v10 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v69 main_arg4 main_v85 (mulf : (⟨S_, .f32⟩ : BufTy).Contents (Elt F) → (⟨S_, .f32⟩ : BufTy).Contents (Elt F) → (⟨S_, .f32⟩ : BufTy).Contents (Elt F)),
    nullary main_cst_17 (constant S_ .f32 0x40400000#32),
    binary main_v85 main_cst_17 main_v86 (Host.divf : (⟨S_, .f32⟩ : BufTy).Contents (Elt F) → (⟨S_, .f32⟩ : BufTy).Contents (Elt F) → (⟨S_, .f32⟩ : BufTy).Contents (Elt F)),
    unary main_v86 main_v87 (broadcastInDim S100000x32 ![] bcast_S_S100000x32 : (⟨S_, .f32⟩ : BufTy).Contents (Elt F) → (⟨S100000x32, .f32⟩ : BufTy).Contents (Elt F)),
    binary main_v87 main_v84 main_v88 (mulf : (⟨S100000x32, .f32⟩ : BufTy).Contents (Elt F) → (⟨S100000x32, .f32⟩ : BufTy).Contents (Elt F) → (⟨S100000x32, .f32⟩ : BufTy).Contents (Elt F)),
    binary main_v72 main_v88 main_v89 (addf : (⟨S100000x32, .f32⟩ : BufTy).Contents (Elt F) → (⟨S100000x32, .f32⟩ : BufTy).Contents (Elt F) → (⟨S100000x32, .f32⟩ : BufTy).Contents (Elt F)),
    nullary main_c_18 (constantI S_ 32 0#32),
    unary main_c_18 main_v90 (broadcastInDim S1700000 ![] bcast_S_S1700000 : (⟨S_, .i32⟩ : BufTy).Contents (Elt F) → (⟨S1700000, .i32⟩ : BufTy).Contents (Elt F)),
    binary main_v7 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v92 (broadcastInDim S1700000 ![] bcast_S_S1700000 : (⟨S_, .i32⟩ : BufTy).Contents (Elt F) → (⟨S1700000, .i32⟩ : BufTy).Contents (Elt F)),
    binary main_v7 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v7 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v94 main_v95 (broadcastInDim S1700000x1 ![0] bcast_S1700000_S1700000x1_0 : (⟨S1700000, .i32⟩ : BufTy).Contents (Elt F) → (⟨S1700000x1, .i32⟩ : BufTy).Contents (Elt F)),
    binary main_v84 main_v95 main_v96 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v97 (broadcastInDim S1700000x32 ![0, 1] bcast_S1700000x1_S1700000x32_0_1 : (⟨S1700000x1, .f32⟩ : BufTy).Contents (Elt F) → (⟨S1700000x32, .f32⟩ : BufTy).Contents (Elt F)),
    binary main_v96 main_v97 main_v98 (mulf : (⟨S1700000x32, .f32⟩ : BufTy).Contents (Elt F) → (⟨S1700000x32, .f32⟩ : BufTy).Contents (Elt F) → (⟨S1700000x32, .f32⟩ : BufTy).Contents (Elt F)),
    nullary main_cst_20 (constant S_ .f32 0x00000000#32),
    unary main_cst_20 main_v99 (broadcastInDim S100000x32 ![] bcast_S_S100000x32 : (⟨S_, .f32⟩ : BufTy).Contents (Elt F) → (⟨S100000x32, .f32⟩ : BufTy).Contents (Elt F)),
    unary main_v10 main_v100 (broadcastInDim S1700000x1 ![0] bcast_S1700000_S1700000x1_0 : (⟨S1700000, .i32⟩ : BufTy).Contents (Elt F) → (⟨S1700000x1, .i32⟩ : BufTy).Contents (Elt F)),
    ternary main_v99 main_v100 main_v98 main_v101 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v86 main_arg4 main_v102 (mulf : (⟨S_, .f32⟩ : BufTy).Contents (Elt F) → (⟨S_, .f32⟩ : BufTy).Contents (Elt F) → (⟨S_, .f32⟩ : BufTy).Contents (Elt F)),
    nullary main_cst_21 (constant S_ .f32 0x40800000#32),
    binary main_v102 main_cst_21 main_v103 (Host.divf : (⟨S_, .f32⟩ : BufTy).Contents (Elt F) → (⟨S_, .f32⟩ : BufTy).Contents (Elt F) → (⟨S_, .f32⟩ : BufTy).Contents (Elt F)),
    unary main_v103 main_v104 (broadcastInDim S100000x32 ![] bcast_S_S100000x32 : (⟨S_, .f32⟩ : BufTy).Contents (Elt F) → (⟨S100000x32, .f32⟩ : BufTy).Contents (Elt F)),
    binary main_v104 main_v101 main_v105 (mulf : (⟨S100000x32, .f32⟩ : BufTy).Contents (Elt F) → (⟨S100000x32, .f32⟩ : BufTy).Contents (Elt F) → (⟨S100000x32, .f32⟩ : BufTy).Contents (Elt F)),
    binary main_v89 main_v105 main_v106 (addf : (⟨S100000x32, .f32⟩ : BufTy).Contents (Elt F) → (⟨S100000x32, .f32⟩ : BufTy).Contents (Elt F) → (⟨S100000x32, .f32⟩ : BufTy).Contents (Elt F)),
    nullary main_c_22 (constantI S_ 32 0#32),
    unary main_c_22 main_v107 (broadcastInDim S1700000 ![] bcast_S_S1700000 : (⟨S_, .i32⟩ : BufTy).Contents (Elt F) → (⟨S1700000, .i32⟩ : BufTy).Contents (Elt F)),
    binary main_v7 main_v107 main_v108 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v109 (broadcastInDim S1700000 ![] bcast_S_S1700000 : (⟨S_, .i32⟩ : BufTy).Contents (Elt F) → (⟨S1700000, .i32⟩ : BufTy).Contents (Elt F)),
    binary main_v7 main_v109 main_v110 (addi : (⟨S1700000, .i32⟩ : BufTy).Contents (Elt F) → (⟨S1700000, .i32⟩ : BufTy).Contents (Elt F) → (⟨S1700000, .i32⟩ : BufTy).Contents (Elt F)),
    ternary main_v108 main_v110 main_v7 main_v111 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v111 main_v112 (broadcastInDim S1700000x1 ![0] bcast_S1700000_S1700000x1_0 : (⟨S1700000, .i32⟩ : BufTy).Contents (Elt F) → (⟨S1700000x1, .i32⟩ : BufTy).Contents (Elt F)),
    binary main_v101 main_v112 main_v113 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v114 (broadcastInDim S1700000x32 ![0, 1] bcast_S1700000x1_S1700000x32_0_1 : (⟨S1700000x1, .f32⟩ : BufTy).Contents (Elt F) → (⟨S1700000x32, .f32⟩ : BufTy).Contents (Elt F)),
    binary main_v113 main_v114 main_v115 (mulf : (⟨S1700000x32, .f32⟩ : BufTy).Contents (Elt F) → (⟨S1700000x32, .f32⟩ : BufTy).Contents (Elt F) → (⟨S1700000x32, .f32⟩ : BufTy).Contents (Elt F)),
    nullary main_cst_24 (constant S_ .f32 0x00000000#32),
    unary main_cst_24 main_v116 (broadcastInDim S100000x32 ![] bcast_S_S100000x32 : (⟨S_, .f32⟩ : BufTy).Contents (Elt F) → (⟨S100000x32, .f32⟩ : BufTy).Contents (Elt F)),
    unary main_v10 main_v117 (broadcastInDim S1700000x1 ![0] bcast_S1700000_S1700000x1_0 : (⟨S1700000, .i32⟩ : BufTy).Contents (Elt F) → (⟨S1700000x1, .i32⟩ : BufTy).Contents (Elt F)),
    ternary main_v116 main_v117 main_v115 main_v118 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v103 main_arg4 main_v119 (mulf : (⟨S_, .f32⟩ : BufTy).Contents (Elt F) → (⟨S_, .f32⟩ : BufTy).Contents (Elt F) → (⟨S_, .f32⟩ : BufTy).Contents (Elt F)),
    nullary main_cst_25 (constant S_ .f32 0x40A00000#32),
    binary main_v119 main_cst_25 main_v120 (Host.divf : (⟨S_, .f32⟩ : BufTy).Contents (Elt F) → (⟨S_, .f32⟩ : BufTy).Contents (Elt F) → (⟨S_, .f32⟩ : BufTy).Contents (Elt F)),
    unary main_v120 main_v121 (broadcastInDim S100000x32 ![] bcast_S_S100000x32 : (⟨S_, .f32⟩ : BufTy).Contents (Elt F) → (⟨S100000x32, .f32⟩ : BufTy).Contents (Elt F)),
    binary main_v121 main_v118 main_v122 (mulf : (⟨S100000x32, .f32⟩ : BufTy).Contents (Elt F) → (⟨S100000x32, .f32⟩ : BufTy).Contents (Elt F) → (⟨S100000x32, .f32⟩ : BufTy).Contents (Elt F)),
    binary main_v106 main_v122 main_v123 (addf : (⟨S100000x32, .f32⟩ : BufTy).Contents (Elt F) → (⟨S100000x32, .f32⟩ : BufTy).Contents (Elt F) → (⟨S100000x32, .f32⟩ : BufTy).Contents (Elt F)),
    nullary main_c_26 (constantI S_ 32 0#32),
    unary main_c_26 main_v124 (broadcastInDim S1700000 ![] bcast_S_S1700000 : (⟨S_, .i32⟩ : BufTy).Contents (Elt F) → (⟨S1700000, .i32⟩ : BufTy).Contents (Elt F)),
    binary main_v7 main_v124 main_v125 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v126 (broadcastInDim S1700000 ![] bcast_S_S1700000 : (⟨S_, .i32⟩ : BufTy).Contents (Elt F) → (⟨S1700000, .i32⟩ : BufTy).Contents (Elt F)),
    binary main_v7 main_v126 main_v127 (addi : (⟨S1700000, .i32⟩ : BufTy).Contents (Elt F) → (⟨S1700000, .i32⟩ : BufTy).Contents (Elt F) → (⟨S1700000, .i32⟩ : BufTy).Contents (Elt F)),
    ternary main_v125 main_v127 main_v7 main_v128 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v128 main_v129 (broadcastInDim S1700000x1 ![0] bcast_S1700000_S1700000x1_0 : (⟨S1700000, .i32⟩ : BufTy).Contents (Elt F) → (⟨S1700000x1, .i32⟩ : BufTy).Contents (Elt F)),
    binary main_v118 main_v129 main_v130 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v131 (broadcastInDim S1700000x32 ![0, 1] bcast_S1700000x1_S1700000x32_0_1 : (⟨S1700000x1, .f32⟩ : BufTy).Contents (Elt F) → (⟨S1700000x32, .f32⟩ : BufTy).Contents (Elt F)),
    binary main_v130 main_v131 main_v132 (mulf : (⟨S1700000x32, .f32⟩ : BufTy).Contents (Elt F) → (⟨S1700000x32, .f32⟩ : BufTy).Contents (Elt F) → (⟨S1700000x32, .f32⟩ : BufTy).Contents (Elt F)),
    nullary main_cst_28 (constant S_ .f32 0x00000000#32),
    unary main_cst_28 main_v133 (broadcastInDim S100000x32 ![] bcast_S_S100000x32 : (⟨S_, .f32⟩ : BufTy).Contents (Elt F) → (⟨S100000x32, .f32⟩ : BufTy).Contents (Elt F)),
    unary main_v10 main_v134 (broadcastInDim S1700000x1 ![0] bcast_S1700000_S1700000x1_0 : (⟨S1700000, .i32⟩ : BufTy).Contents (Elt F) → (⟨S1700000x1, .i32⟩ : BufTy).Contents (Elt F)),
    ternary main_v133 main_v134 main_v132 main_v135 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v120 main_arg4 main_v136 (mulf : (⟨S_, .f32⟩ : BufTy).Contents (Elt F) → (⟨S_, .f32⟩ : BufTy).Contents (Elt F) → (⟨S_, .f32⟩ : BufTy).Contents (Elt F)),
    nullary main_cst_29 (constant S_ .f32 0x40C00000#32),
    binary main_v136 main_cst_29 main_v137 (Host.divf : (⟨S_, .f32⟩ : BufTy).Contents (Elt F) → (⟨S_, .f32⟩ : BufTy).Contents (Elt F) → (⟨S_, .f32⟩ : BufTy).Contents (Elt F)),
    unary main_v137 main_v138 (broadcastInDim S100000x32 ![] bcast_S_S100000x32 : (⟨S_, .f32⟩ : BufTy).Contents (Elt F) → (⟨S100000x32, .f32⟩ : BufTy).Contents (Elt F)),
    binary main_v138 main_v135 main_v139 (mulf : (⟨S100000x32, .f32⟩ : BufTy).Contents (Elt F) → (⟨S100000x32, .f32⟩ : BufTy).Contents (Elt F) → (⟨S100000x32, .f32⟩ : BufTy).Contents (Elt F)),
    binary main_v123 main_v139 main_v140 (addf : (⟨S100000x32, .f32⟩ : BufTy).Contents (Elt F) → (⟨S100000x32, .f32⟩ : BufTy).Contents (Elt F) → (⟨S100000x32, .f32⟩ : BufTy).Contents (Elt F)),
    nullary main_c_30 (constantI S_ 32 0#32),
    unary main_c_30 main_v141 (broadcastInDim S1700000 ![] bcast_S_S1700000 : (⟨S_, .i32⟩ : BufTy).Contents (Elt F) → (⟨S1700000, .i32⟩ : BufTy).Contents (Elt F)),
    binary main_v7 main_v141 main_v142 (cmpi .slt : (⟨S1700000, .i32⟩ : BufTy).Contents (Elt F) → (⟨S1700000, .i32⟩ : BufTy).Contents (Elt F) → (⟨S1700000, .i1⟩ : BufTy).Contents (Elt F)),
    nullary main_c_31 (constantI S_ 32 100000#32),
    unary main_c_31 main_v143 (broadcastInDim S1700000 ![] bcast_S_S1700000 : (⟨S_, .i32⟩ : BufTy).Contents (Elt F) → (⟨S1700000, .i32⟩ : BufTy).Contents (Elt F)),
    binary main_v7 main_v143 main_v144 (addi : (⟨S1700000, .i32⟩ : BufTy).Contents (Elt F) → (⟨S1700000, .i32⟩ : BufTy).Contents (Elt F) → (⟨S1700000, .i32⟩ : BufTy).Contents (Elt F)),
    ternary main_v142 main_v144 main_v7 main_v145 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v145 main_v146 (broadcastInDim S1700000x1 ![0] bcast_S1700000_S1700000x1_0 : (⟨S1700000, .i32⟩ : BufTy).Contents (Elt F) → (⟨S1700000x1, .i32⟩ : BufTy).Contents (Elt F)),
    binary main_v135 main_v146 main_v147 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v148 (broadcastInDim S1700000x32 ![0, 1] bcast_S1700000x1_S1700000x32_0_1 : (⟨S1700000x1, .f32⟩ : BufTy).Contents (Elt F) → (⟨S1700000x32, .f32⟩ : BufTy).Contents (Elt F)),
    binary main_v147 main_v148 main_v149 (mulf : (⟨S1700000x32, .f32⟩ : BufTy).Contents (Elt F) → (⟨S1700000x32, .f32⟩ : BufTy).Contents (Elt F) → (⟨S1700000x32, .f32⟩ : BufTy).Contents (Elt F)),
    nullary main_cst_32 (constant S_ .f32 0x00000000#32),
    unary main_cst_32 main_v150 (broadcastInDim S100000x32 ![] bcast_S_S100000x32 : (⟨S_, .f32⟩ : BufTy).Contents (Elt F) → (⟨S100000x32, .f32⟩ : BufTy).Contents (Elt F)),
    unary main_v10 main_v151 (broadcastInDim S1700000x1 ![0] bcast_S1700000_S1700000x1_0 : (⟨S1700000, .i32⟩ : BufTy).Contents (Elt F) → (⟨S1700000x1, .i32⟩ : BufTy).Contents (Elt F)),
    ternary main_v150 main_v151 main_v149 main_v152 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v137 main_arg4 main_v153 (mulf : (⟨S_, .f32⟩ : BufTy).Contents (Elt F) → (⟨S_, .f32⟩ : BufTy).Contents (Elt F) → (⟨S_, .f32⟩ : BufTy).Contents (Elt F)),
    nullary main_cst_33 (constant S_ .f32 0x40E00000#32),
    binary main_v153 main_cst_33 main_v154 (Host.divf : (⟨S_, .f32⟩ : BufTy).Contents (Elt F) → (⟨S_, .f32⟩ : BufTy).Contents (Elt F) → (⟨S_, .f32⟩ : BufTy).Contents (Elt F)),
    unary main_v154 main_v155 (broadcastInDim S100000x32 ![] bcast_S_S100000x32 : (⟨S_, .f32⟩ : BufTy).Contents (Elt F) → (⟨S100000x32, .f32⟩ : BufTy).Contents (Elt F)),
    binary main_v155 main_v152 main_v156 (mulf : (⟨S100000x32, .f32⟩ : BufTy).Contents (Elt F) → (⟨S100000x32, .f32⟩ : BufTy).Contents (Elt F) → (⟨S100000x32, .f32⟩ : BufTy).Contents (Elt F)),
    binary main_v140 main_v156 main_v157 (addf : (⟨S100000x32, .f32⟩ : BufTy).Contents (Elt F) → (⟨S100000x32, .f32⟩ : BufTy).Contents (Elt F) → (⟨S100000x32, .f32⟩ : BufTy).Contents (Elt F)),
    nullary main_c_34 (constantI S_ 32 0#32),
    unary main_c_34 main_v158 (broadcastInDim S1700000 ![] bcast_S_S1700000 : (⟨S_, .i32⟩ : BufTy).Contents (Elt F) → (⟨S1700000, .i32⟩ : BufTy).Contents (Elt F)),
    binary main_v7 main_v158 main_v159 (cmpi .slt : (⟨S1700000, .i32⟩ : BufTy).Contents (Elt F) → (⟨S1700000, .i32⟩ : BufTy).Contents (Elt F) → (⟨S1700000, .i1⟩ : BufTy).Contents (Elt F)),
    nullary main_c_35 (constantI S_ 32 100000#32),
    unary main_c_35 main_v160 (broadcastInDim S1700000 ![] bcast_S_S1700000 : (⟨S_, .i32⟩ : BufTy).Contents (Elt F) → (⟨S1700000, .i32⟩ : BufTy).Contents (Elt F)),
    binary main_v7 main_v160 main_v161 (addi : (⟨S1700000, .i32⟩ : BufTy).Contents (Elt F) → (⟨S1700000, .i32⟩ : BufTy).Contents (Elt F) → (⟨S1700000, .i32⟩ : BufTy).Contents (Elt F)),
    ternary main_v159 main_v161 main_v7 main_v162 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v162 main_v163 (broadcastInDim S1700000x1 ![0] bcast_S1700000_S1700000x1_0 : (⟨S1700000, .i32⟩ : BufTy).Contents (Elt F) → (⟨S1700000x1, .i32⟩ : BufTy).Contents (Elt F)),
    binary main_v152 main_v163 main_v164 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v165 (broadcastInDim S1700000x32 ![0, 1] bcast_S1700000x1_S1700000x32_0_1 : (⟨S1700000x1, .f32⟩ : BufTy).Contents (Elt F) → (⟨S1700000x32, .f32⟩ : BufTy).Contents (Elt F)),
    binary main_v164 main_v165 main_v166 (mulf : (⟨S1700000x32, .f32⟩ : BufTy).Contents (Elt F) → (⟨S1700000x32, .f32⟩ : BufTy).Contents (Elt F) → (⟨S1700000x32, .f32⟩ : BufTy).Contents (Elt F)),
    nullary main_cst_36 (constant S_ .f32 0x00000000#32),
    unary main_cst_36 main_v167 (broadcastInDim S100000x32 ![] bcast_S_S100000x32 : (⟨S_, .f32⟩ : BufTy).Contents (Elt F) → (⟨S100000x32, .f32⟩ : BufTy).Contents (Elt F)),
    unary main_v10 main_v168 (broadcastInDim S1700000x1 ![0] bcast_S1700000_S1700000x1_0 : (⟨S1700000, .i32⟩ : BufTy).Contents (Elt F) → (⟨S1700000x1, .i32⟩ : BufTy).Contents (Elt F)),
    ternary main_v167 main_v168 main_v166 main_v169 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v154 main_arg4 main_v170 (mulf : (⟨S_, .f32⟩ : BufTy).Contents (Elt F) → (⟨S_, .f32⟩ : BufTy).Contents (Elt F) → (⟨S_, .f32⟩ : BufTy).Contents (Elt F)),
    nullary main_cst_37 (constant S_ .f32 0x41000000#32),
    binary main_v170 main_cst_37 main_v171 (Host.divf : (⟨S_, .f32⟩ : BufTy).Contents (Elt F) → (⟨S_, .f32⟩ : BufTy).Contents (Elt F) → (⟨S_, .f32⟩ : BufTy).Contents (Elt F)),
    unary main_v171 main_v172 (broadcastInDim S100000x32 ![] bcast_S_S100000x32 : (⟨S_, .f32⟩ : BufTy).Contents (Elt F) → (⟨S100000x32, .f32⟩ : BufTy).Contents (Elt F)),
    binary main_v172 main_v169 main_v173 (mulf : (⟨S100000x32, .f32⟩ : BufTy).Contents (Elt F) → (⟨S100000x32, .f32⟩ : BufTy).Contents (Elt F) → (⟨S100000x32, .f32⟩ : BufTy).Contents (Elt F)),
    binary main_v157 main_v173 main_v174 (addf : (⟨S100000x32, .f32⟩ : BufTy).Contents (Elt F) → (⟨S100000x32, .f32⟩ : BufTy).Contents (Elt F) → (⟨S100000x32, .f32⟩ : BufTy).Contents (Elt F)),
    nullary main_c_38 (constantI S_ 32 0#32),
    unary main_c_38 main_v175 (broadcastInDim S1700000 ![] bcast_S_S1700000 : (⟨S_, .i32⟩ : BufTy).Contents (Elt F) → (⟨S1700000, .i32⟩ : BufTy).Contents (Elt F)),
    binary main_v7 main_v175 main_v176 (cmpi .slt : (⟨S1700000, .i32⟩ : BufTy).Contents (Elt F) → (⟨S1700000, .i32⟩ : BufTy).Contents (Elt F) → (⟨S1700000, .i1⟩ : BufTy).Contents (Elt F)),
    nullary main_c_39 (constantI S_ 32 100000#32),
    unary main_c_39 main_v177 (broadcastInDim S1700000 ![] bcast_S_S1700000 : (⟨S_, .i32⟩ : BufTy).Contents (Elt F) → (⟨S1700000, .i32⟩ : BufTy).Contents (Elt F)),
    binary main_v7 main_v177 main_v178 (addi : (⟨S1700000, .i32⟩ : BufTy).Contents (Elt F) → (⟨S1700000, .i32⟩ : BufTy).Contents (Elt F) → (⟨S1700000, .i32⟩ : BufTy).Contents (Elt F)),
    ternary main_v176 main_v178 main_v7 main_v179 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v179 main_v180 (broadcastInDim S1700000x1 ![0] bcast_S1700000_S1700000x1_0 : (⟨S1700000, .i32⟩ : BufTy).Contents (Elt F) → (⟨S1700000x1, .i32⟩ : BufTy).Contents (Elt F)),
    binary main_v169 main_v180 main_v181 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v182 (broadcastInDim S1700000x32 ![0, 1] bcast_S1700000x1_S1700000x32_0_1 : (⟨S1700000x1, .f32⟩ : BufTy).Contents (Elt F) → (⟨S1700000x32, .f32⟩ : BufTy).Contents (Elt F)),
    binary main_v181 main_v182 main_v183 (mulf : (⟨S1700000x32, .f32⟩ : BufTy).Contents (Elt F) → (⟨S1700000x32, .f32⟩ : BufTy).Contents (Elt F) → (⟨S1700000x32, .f32⟩ : BufTy).Contents (Elt F)),
    nullary main_cst_40 (constant S_ .f32 0x00000000#32),
    unary main_cst_40 main_v184 (broadcastInDim S100000x32 ![] bcast_S_S100000x32 : (⟨S_, .f32⟩ : BufTy).Contents (Elt F) → (⟨S100000x32, .f32⟩ : BufTy).Contents (Elt F)),
    unary main_v10 main_v185 (broadcastInDim S1700000x1 ![0] bcast_S1700000_S1700000x1_0 : (⟨S1700000, .i32⟩ : BufTy).Contents (Elt F) → (⟨S1700000x1, .i32⟩ : BufTy).Contents (Elt F)),
    ternary main_v184 main_v185 main_v183 main_v186 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v171 main_arg4 main_v187 (mulf : (⟨S_, .f32⟩ : BufTy).Contents (Elt F) → (⟨S_, .f32⟩ : BufTy).Contents (Elt F) → (⟨S_, .f32⟩ : BufTy).Contents (Elt F)),
    nullary main_cst_41 (constant S_ .f32 0x41100000#32),
    binary main_v187 main_cst_41 main_v188 (Host.divf : (⟨S_, .f32⟩ : BufTy).Contents (Elt F) → (⟨S_, .f32⟩ : BufTy).Contents (Elt F) → (⟨S_, .f32⟩ : BufTy).Contents (Elt F)),
    unary main_v188 main_v189 (broadcastInDim S100000x32 ![] bcast_S_S100000x32 : (⟨S_, .f32⟩ : BufTy).Contents (Elt F) → (⟨S100000x32, .f32⟩ : BufTy).Contents (Elt F)),
    binary main_v189 main_v186 main_v190 (mulf : (⟨S100000x32, .f32⟩ : BufTy).Contents (Elt F) → (⟨S100000x32, .f32⟩ : BufTy).Contents (Elt F) → (⟨S100000x32, .f32⟩ : BufTy).Contents (Elt F)),
    binary main_v174 main_v190 main_v191 (addf : (⟨S100000x32, .f32⟩ : BufTy).Contents (Elt F) → (⟨S100000x32, .f32⟩ : BufTy).Contents (Elt F) → (⟨S100000x32, .f32⟩ : BufTy).Contents (Elt F)),
    nullary main_c_42 (constantI S_ 32 0#32),
    unary main_c_42 main_v192 (broadcastInDim S1700000 ![] bcast_S_S1700000 : (⟨S_, .i32⟩ : BufTy).Contents (Elt F) → (⟨S1700000, .i32⟩ : BufTy).Contents (Elt F)),
    binary main_v7 main_v192 main_v193 (cmpi .slt : (⟨S1700000, .i32⟩ : BufTy).Contents (Elt F) → (⟨S1700000, .i32⟩ : BufTy).Contents (Elt F) → (⟨S1700000, .i1⟩ : BufTy).Contents (Elt F)),
    nullary main_c_43 (constantI S_ 32 100000#32),
    unary main_c_43 main_v194 (broadcastInDim S1700000 ![] bcast_S_S1700000 : (⟨S_, .i32⟩ : BufTy).Contents (Elt F) → (⟨S1700000, .i32⟩ : BufTy).Contents (Elt F)),
    binary main_v7 main_v194 main_v195 (addi : (⟨S1700000, .i32⟩ : BufTy).Contents (Elt F) → (⟨S1700000, .i32⟩ : BufTy).Contents (Elt F) → (⟨S1700000, .i32⟩ : BufTy).Contents (Elt F)),
    ternary main_v193 main_v195 main_v7 main_v196 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v196 main_v197 (broadcastInDim S1700000x1 ![0] bcast_S1700000_S1700000x1_0 : (⟨S1700000, .i32⟩ : BufTy).Contents (Elt F) → (⟨S1700000x1, .i32⟩ : BufTy).Contents (Elt F)),
    binary main_v186 main_v197 main_v198 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v34 main_v199 (broadcastInDim S1700000x32 ![0, 1] bcast_S1700000x1_S1700000x32_0_1 : (⟨S1700000x1, .f32⟩ : BufTy).Contents (Elt F) → (⟨S1700000x32, .f32⟩ : BufTy).Contents (Elt F)),
    binary main_v198 main_v199 main_v200 (mulf : (⟨S1700000x32, .f32⟩ : BufTy).Contents (Elt F) → (⟨S1700000x32, .f32⟩ : BufTy).Contents (Elt F) → (⟨S1700000x32, .f32⟩ : BufTy).Contents (Elt F)),
    nullary main_cst_44 (constant S_ .f32 0x00000000#32),
    unary main_cst_44 main_v201 (broadcastInDim S100000x32 ![] bcast_S_S100000x32 : (⟨S_, .f32⟩ : BufTy).Contents (Elt F) → (⟨S100000x32, .f32⟩ : BufTy).Contents (Elt F)),
    unary main_v10 main_v202 (broadcastInDim S1700000x1 ![0] bcast_S1700000_S1700000x1_0 : (⟨S1700000, .i32⟩ : BufTy).Contents (Elt F) → (⟨S1700000x1, .i32⟩ : BufTy).Contents (Elt F)),
    ternary main_v201 main_v202 main_v200 main_v203 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    binary main_v188 main_arg4 main_v204 (mulf : (⟨S_, .f32⟩ : BufTy).Contents (Elt F) → (⟨S_, .f32⟩ : BufTy).Contents (Elt F) → (⟨S_, .f32⟩ : BufTy).Contents (Elt F)),
    nullary main_cst_45 (constant S_ .f32 0x41200000#32),
    binary main_v204 main_cst_45 main_v205 (Host.divf : (⟨S_, .f32⟩ : BufTy).Contents (Elt F) → (⟨S_, .f32⟩ : BufTy).Contents (Elt F) → (⟨S_, .f32⟩ : BufTy).Contents (Elt F)),
    unary main_v205 main_v206 (broadcastInDim S100000x32 ![] bcast_S_S100000x32 : (⟨S_, .f32⟩ : BufTy).Contents (Elt F) → (⟨S100000x32, .f32⟩ : BufTy).Contents (Elt F)),
    binary main_v206 main_v203 main_v207 (mulf : (⟨S100000x32, .f32⟩ : BufTy).Contents (Elt F) → (⟨S100000x32, .f32⟩ : BufTy).Contents (Elt F) → (⟨S100000x32, .f32⟩ : BufTy).Contents (Elt F)),
    binary main_v191 main_v207 main_v208 (addf : (⟨S100000x32, .f32⟩ : BufTy).Contents (Elt F) → (⟨S100000x32, .f32⟩ : BufTy).Contents (Elt F) → (⟨S100000x32, .f32⟩ : BufTy).Contents (Elt F)) ]

set_option maxRecDepth 8192 in
set_option maxHeartbeats 4000000 in
/-- @main is its operations run in order. -/
theorem main_eq (c : Dev nD) : main (F := F) c = seq ops := rfl

/-- The reference's signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each operation touches TensorCore references only: the builder's own lemma, operation by operation. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., binary_bufs_sub .., unary_bufs_sub .., binary_bufs_sub .., binary_bufs_sub ..⟩

set_option maxRecDepth 8192 in
set_option maxHeartbeats 4000000 in
/-- None allocates. -/
theorem ops_fresh : (ops : List (HloOp τ sig (Elt F))).Forall fun op => op.fresh = ∅ := by
  repeat (refine forall_fresh_cons rfl ?_)
  exact trivial

/-- Every weakly fair execution of the reference terminates, with each buffer at the fold of the operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ
    (fun _ op hop => (List.forall_iff_forall_mem.mp ops_fresh) op hop)

/-- @main's five arguments: no operation writes one. -/
def args : List (Ref sig .tc) := [main_arg0, main_arg1, main_arg2, main_arg3, main_arg4]

set_option maxRecDepth 8192 in
set_option maxHeartbeats 4000000 in
theorem ops_outside : (ops : List (HloOp τ sig (Elt F))).Forall (WritesOutside args) := by
  repeat (refine forall_writesOutside_cons _ rfl (by decide) ?_)
  exact trivial

/-- So each argument ends as launched. -/
theorem kept (m : (ℓ : Loc nD τ sig) → Buf (Elt F) ℓ) (d : Dev nD) {r : Ref sig .tc} (hr : r ∈ args) :
    after (ops (F := F)) (launchContents m d) (Proc.devRef .tc r) = m ((d.tc : Thread nD τ).loc r) :=
  after_of_writesOutside ops_outside _ hr

end Cert.ReferenceIdeal.Line

end
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.RefHead.lean ====
/-
  The reference's first four operations: a dot_general of x by W, the bias vector laid down as a [1,32] row and that row
  repeated down the 100000 rows, and their sum. Read at an entry, their value is the projection x·W + b of the
  specification: the dot_general's entry (r, q) is the sum over k of x (r, k) · W (k, q), and the repeated row's entry is
  the bias at q.
-/
import proofs.«106899_j27419071218310_1_alg».proof.Proof.Gen.ReferenceIdeal
import proofs.«106899_j27419071218310_1_alg».proof.Proof.Spec
import proofs.«106899_j27419071218310_1_alg».proof.Proof.LibMatmulAt
import proofs.«106899_j27419071218310_1_alg».proof.Proof.LibRowInDim
import Idealize.ShloMosaic.Lib.Pipeline.Value

noncomputable section

open scoped BigOperators

namespace Cert.ReferenceIdeal.Head

open Cert.ReferenceIdeal Cert.ReferenceIdeal.Gen
open Idealize.ShloMosaic Idealize.ShloMosaic.ValueIdx

/-- The reference's dimension numbers: the left operand's second axis against the right operand's first. -/
abbrev refDot : DotDims S100000x128 S128x32 S100000x32 := dot_S100000x128_S128x32_S100000x32_1_0_0_1_n_n

theorem refDot_l0 (i : S100000x32.Idx) (q : refDot.contr.Idx) : (refDot.lhsIdx i q 0).val = (i 0).val := by
  unfold DotDims.lhsIdx
  rw [dif_neg (show ¬(0 : Fin S100000x128.rank) ∈ refDot.lhsBatch by decide),
    dif_pos (show (0 : Fin S100000x128.rank) ∈ refDot.lhsNonContracting by decide)]
  rfl
theorem refDot_l1 (i : S100000x32.Idx) (q : refDot.contr.Idx) : (refDot.lhsIdx i q 1).val = (q ⟨0, by decide⟩).val :=
  refDot.lhsIdx_val_of_single rfl i q
theorem refDot_r0 (i : S100000x32.Idx) (q : refDot.contr.Idx) : (refDot.rhsIdx i q 0).val = (q ⟨0, by decide⟩).val :=
  refDot.rhsIdx_val_of_single rfl i q
theorem refDot_r1 (i : S100000x32.Idx) (q : refDot.contr.Idx) : (refDot.rhsIdx i q 1).val = (i 1).val := by
  unfold DotDims.rhsIdx
  rw [dif_neg (show ¬(1 : Fin S128x32.rank) ∈ refDot.rhsBatch by decide),
    dif_pos (show (1 : Fin S128x32.rank) ∈ refDot.rhsNonContracting by decide)]
  rfl

/-- The value of the reference's fourth operation, of the three arguments it depends on. -/
def head (x : FVec Ideal S100000x128 .f32) (w : FVec Ideal S128x32 .f32) (b : FVec Ideal S32 .f32) : FVec Ideal S100000x32 .f32 :=
  addf (F := Ideal) (Host.dotGeneral (F := Ideal) dot_S100000x128_S128x32_S100000x32_1_0_0_1_n_n none x w)
    (broadcastInDim S100000x32 ![0, 1] bcast_S1x32_S100000x32_0_1 (broadcastInDim S1x32 ![1] bcast_S32_S1x32_1 b))

/-- It is the projection. -/
theorem head_eq (x : FVec Ideal S100000x128 .f32) (w : FVec Ideal S128x32 .f32) (b : FVec Ideal S32 .f32) :
    head x w b = Cert.Spec.proj x w b := by
  funext i
  obtain ⟨p, q, rfl⟩ : ∃ (p : Fin 100000) (q : Fin 32), i = ix2 p q := ⟨i 0, i 1, eq_ix2 i⟩
  unfold head Cert.Spec.proj
  show Host.dotGeneral (F := Ideal) refDot none x w (ix2 p q)
      + broadcastInDim S100000x32 ![0, 1] bcast_S1x32_S100000x32_0_1 (broadcastInDim S1x32 ![1] bcast_S32_S1x32_1 b) (ix2 p q) = _
  rw [MatmulAt.dotGeneral_ix2 refDot rfl rfl refDot_l0 refDot_l1 refDot_r0 refDot_r1,
    Cert.LibRowInDim.bcast_1b_ab_apply, Cert.LibRowInDim.bcast_b_1b_apply]

end Cert.ReferenceIdeal.Head

end
-- ==== Proof.LibConcatCongr.lean ====
/-
  The two pieces of a concatenation may be rewritten in place.

  `concatenate` takes, after its list of (shape, array) pieces, a side condition on the pieces' SHAPES. Because that
  condition is stated through the list, a rewriting pass does not by itself descend into the pieces' arrays. This
  congruence says it may: rewriting the arrays leaves the shapes, hence the condition, as they were. Registered for
  the simplifier, it lets one pass evaluate a straight line of host operations through a two-piece concatenation.
-/
import Idealize.ShloMosaic.PureOps

namespace Idealize.ShloMosaic

/-- Rewriting the arrays of a two-piece concatenation. -/
@[congr] theorem concatenate_congr2 {α : Type} (t : Shape) (d : Fin t.rank) (s₁ s₂ : Shape)
    {a a' : s₁.Idx → α} {b b' : s₂.Idx → α}
    (h : Shape.Concatenates (([⟨s₁, a⟩, ⟨s₂, b⟩] : List ((s : Shape) × (s.Idx → α))).map (·.1)) t d)
    (ha : a = a') (hb : b = b') :
    concatenate t d [⟨s₁, a⟩, ⟨s₂, b⟩] h = concatenate t d [⟨s₁, a'⟩, ⟨s₂, b'⟩] h := by
  subst ha; subst hb; rfl

end Idealize.ShloMosaic
-- ==== Proof.IdealTail.lean ====
/-
  The host lines after the region compute what the reference's lines compute.

  After its first four operations the reference runs, line for line, the 255 operations the kernel's @main runs after
  its region — the same operations with the same constants, on buffers of other names: the graph diffusion of the
  projection over the edge list. So from ANY contents of the kernel program's buffers that hold the reference's fourth
  stage in the region's output buffer, and the reference's edge list and diffusion time in their argument buffers, the
  kernel's later lines leave in the result buffer what the reference's whole line leaves in its own. Nothing of the
  diffusion is opened: both folds unfold to the same composition of the same operations of those three values.
-/
import proofs.«106899_j27419071218310_1_alg».proof.Proof.IdealLines
import proofs.«106899_j27419071218310_1_alg».proof.Proof.RefRun
import proofs.«106899_j27419071218310_1_alg».proof.Proof.RefHead
import proofs.«106899_j27419071218310_1_alg».proof.Proof.LibConcatCongr

set_option maxRecDepth 16384

noncomputable section

namespace Cert.KernelIdeal.Run

open Idealize.ShloMosaic Idealize.ShloMosaic.TcCoe Idealize.SL.Sem Idealize.ShloMosaic.StableHlo

set_option maxHeartbeats 400000000 in
/-- The later lines, run from contents `Wv` with the reference's fourth stage (of the reference's arguments) in the
    region's output buffer and the reference's edge list and time in theirs, end with the result buffer at what the
    reference's operations, folded over its launch contents, leave in the reference's result buffer. -/
theorem later_value (Wv : Valuation Cert.KernelIdeal.τ Cert.KernelIdeal.sig (Elt Ideal))
    (m' : (ℓ : Loc Cert.ReferenceIdeal.nD Cert.ReferenceIdeal.τ Cert.ReferenceIdeal.sig) → Buf (Elt Ideal) ℓ)
    (c : Dev Cert.ReferenceIdeal.nD)
    (hh : Wv (Proc.devRef .tc Cert.KernelIdeal.main_v1)
      = Cert.ReferenceIdeal.Head.head
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)))
    (he : Wv (Proc.devRef .tc Cert.KernelIdeal.main_arg1)
      = m' ((c.tc : Thread Cert.ReferenceIdeal.nD Cert.ReferenceIdeal.τ).loc Cert.ReferenceIdeal.main_arg1))
    (ht : Wv (Proc.devRef .tc Cert.KernelIdeal.main_arg4)
      = m' ((c.tc : Thread Cert.ReferenceIdeal.nD Cert.ReferenceIdeal.τ).loc Cert.ReferenceIdeal.main_arg4)) :
    StableHlo.after (later (F := Ideal)).flatten Wv (Proc.devRef .tc Cert.KernelIdeal.main_v206)
      = StableHlo.after (Cert.ReferenceIdeal.Line.ops (F := Ideal)) (launchContents m' c)
          (Proc.devRef .tc Cert.ReferenceIdeal.main_v208) := by
  show StableHlo.after (Cert.KernelIdeal.Gen.hostOps1 ++ (Cert.KernelIdeal.Gen.hostOps1_1 ++ (Cert.KernelIdeal.Gen.hostOps1_2 ++ []))) Wv
      (Proc.devRef .tc Cert.KernelIdeal.main_v206) = _
  simp only [Cert.KernelIdeal.Gen.hostOps1, Cert.KernelIdeal.Gen.hostOps1_1, Cert.KernelIdeal.Gen.hostOps1_2,
    Cert.ReferenceIdeal.Line.ops, List.cons_append, List.nil_append, List.append_nil]
  after_results_simp
  rw [hh, he, ht]
  rfl

end Cert.KernelIdeal.Run

end
-- ==== Proof.BitsLines.lean ====
/-
  The host lines around the one region of `Cert.Kernel`'s @main.

  @main is: one reshape (the bias vector laid down as a [1,32] row), the region (the projection kernel over ten row
  blocks), and then 255 host operations in three stretches (18 lines, the three lines of an outlined `where`, 234
  lines) that compute the graph diffusion from the region's output. Here: the contents each buffer holds when the
  region is entered; that @main reduces to the region continued by the later lines; that the later lines touch only
  unscoped TensorCore buffers, allocate nothing, and write neither an argument nor an array the region's windows
  stand on (each line writes its own result buffer, and none of those is an argument, the bias row or the region's
  output); and hence that the arguments are found, and end, at their launch contents.
-/
import proofs.«106899_j27419071218310_1_alg».proof.Proof.Gen.Kernel.Launch
import proofs.«106899_j27419071218310_1_alg».proof.Proof.LibWritesOutside
import Idealize.ShloMosaic.Lib.Pipeline.FrameSuffix

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)
open Idealize.ShloMosaic.StableHlo (WritesOutside)

variable {F : FTy → Type} [FloatOps F]

variable (m : (ℓ : Loc nD τ sig) → Buf (Elt F) ℓ)

/-! ## The buffers when the region is entered -/

/-- Core `c`'s buffer contents when the region is entered: the launch contents after the one line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch. -/
abbrev later : List (List (HloOp τ sig (Elt F))) := [hostOps1, hostOps1_1, hostOps1_2]

/-- @main's five arguments. -/
def args : List (Ref sig .tc) := [main_arg0, main_arg1, main_arg2, main_arg3, main_arg4]
/-- The arguments, the bias row and the region's output: what no later line writes. -/
def held : List (Ref sig .tc) := [main_arg0, main_arg1, main_arg2, main_arg3, main_arg4, main_v0, main_v1]

theorem args_sub_held {r : Ref sig .tc} (h : r ∈ args) : r ∈ held := by
  simp only [args, List.mem_cons, List.mem_nil_iff, or_false] at h
  simp only [held, List.mem_cons, List.mem_nil_iff, or_false]
  rcases h with rfl | rfl | rfl | rfl | rfl <;> simp

/-! ## What each line writes -/

/-- The line before the region writes the bias row, no argument. -/
theorem before_outside : (hostOps0 : List (HloOp τ sig (Elt F))).Forall (WritesOutside args) :=
  StableHlo.forall_writesOutside_cons main_v0 rfl (by decide) trivial
theorem before_fresh : (hostOps0 : List (HloOp τ sig (Elt F))).Forall fun op => op.fresh = ∅ :=
  StableHlo.forall_fresh_cons rfl trivial

/-- Each of the first 18 later lines writes its own result buffer: none of the held ones. -/
theorem later1_outside : (hostOps1 : List (HloOp τ sig (Elt F))).Forall (WritesOutside held) := by
  repeat (refine StableHlo.forall_writesOutside_cons _ rfl (by decide) ?_)
  exact trivial
theorem later1_fresh : (hostOps1 : List (HloOp τ sig (Elt F))).Forall fun op => op.fresh = ∅ := by
  repeat (refine StableHlo.forall_fresh_cons rfl ?_)
  exact trivial

/-- So do the three lines of the outlined `where`. -/
theorem later2_outside : (hostOps1_1 : List (HloOp τ sig (Elt F))).Forall (WritesOutside held) := by
  repeat (refine StableHlo.forall_writesOutside_cons _ rfl (by decide) ?_)
  exact trivial
theorem later2_fresh : (hostOps1_1 : List (HloOp τ sig (Elt F))).Forall fun op => op.fresh = ∅ := by
  repeat (refine StableHlo.forall_fresh_cons rfl ?_)
  exact trivial

set_option maxHeartbeats 4000000 in
/-- And the last 234. -/
theorem later3_outside : (hostOps1_2 : List (HloOp τ sig (Elt F))).Forall (WritesOutside held) := by
  repeat (refine StableHlo.forall_writesOutside_cons _ rfl (by decide) ?_)
  exact trivial
set_option maxHeartbeats 4000000 in
theorem later3_fresh : (hostOps1_2 : List (HloOp τ sig (Elt F))).Forall fun op => op.fresh = ∅ := by
  repeat (refine StableHlo.forall_fresh_cons rfl ?_)
  exact trivial

/-- All the later lines as one line. -/
theorem later_outside : (later (F := F)).flatten.Forall (WritesOutside held) := by
  show (hostOps1 ++ (hostOps1_1 ++ (hostOps1_2 ++ []))).Forall (WritesOutside held)
  exact StableHlo.forall_writesOutside_append later1_outside
    (StableHlo.forall_writesOutside_append later2_outside (StableHlo.forall_writesOutside_append later3_outside trivial))

/-! ## @main around the region -/

/-- @main, holding the unscoped buffers at their launch contents, reduces to the region, entered with them at `V`,
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact before_fresh) main_chain

/-- The later lines touch the pipeline's arrays and the buffers that bypass the region only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp later1_fresh) op hop
  · exact (List.forall_iff_forall_mem.mp later2_fresh) op hop
  · exact (List.forall_iff_forall_mem.mp later3_fresh) op hop

/-- The four arrays the windows stand on are held ones. -/
theorem arr_held : ∀ w, Pipeline.arrRef spec0 w ∈ held := by decide

/-- And they write no array of the pipeline. -/
theorem later_keeps : ∀ ops ∈ (later : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact StableHlo.not_mem_writes_of_forall later1_outside hop (arr_held w)
  · exact StableHlo.not_mem_writes_of_forall later2_outside hop (arr_held w)
  · exact StableHlo.not_mem_writes_of_forall later3_outside hop (arr_held w)

/-! ## The arguments, found and left as launched -/

/-- The line before the region writes no argument: the region finds each as launched. -/
theorem V_arg {r : Ref sig .tc} (hr : r ∈ args) (c : Dev nD) : V m c r = m ((c : Thread nD τ).loc r) := by
  show StableHlo.after (hostOps0 ++ []) (fun b => m (c, b)) (Proc.devRef .tc r) = _
  rw [List.append_nil]
  exact StableHlo.after_of_writesOutside before_outside _ hr

/-- No later line writes an argument: one that is no array of the pipeline ends as launched. -/
theorem later_arg (dats : (p : Fin 1) → (c : Dev nD) → Dat τ (Elt F) Unit ℕ (UR sig nD τ) ℕ (cfgs p) c) (c : Dev nD)
    {r : Ref sig .tc} (hr : r ∈ args) (hne : ∀ w, Pipeline.arrRef spec0 w ≠ r) :
    Pipeline.afterTail₀ cfgs dats 0 (V0 m) later c r = m ((c : Thread nD τ).loc r) := by
  unfold Pipeline.afterTail₀
  rw [StableHlo.after_of_writesOutside later_outside _ (args_sub_held hr), Pipeline.withArrays_of_ne _ c (V0 m c) _ r hne]
  exact V_arg m hr c

end Cert.Kernel.Run

end
-- ==== Proof.BitsBody.lean ====
/-
  The body of the projection kernel, at one grid point.

  On whole staging buffers — the row block of x, the whole of W, the bias row, and the output block — the body loads the
  three inputs whole, computes one value from them (the block product plus the bias row broadcast down the rows: the
  generated skeleton's payload), loads the output buffer without using what it read, and stores the value over the whole
  output block. So it runs to its continuation with the inputs' buffers as they were and the output's buffer at that
  value, whatever the output's buffer held before.
-/
import proofs.«106899_j27419071218310_1_alg».proof.Proof.Gen.Kernel.Launch
import proofs.«106899_j27419071218310_1_alg».proof.Proof.Gen.Kernel.Skeleton
import proofs.«106899_j27419071218310_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each the whole of its block -/

abbrev rX : Rect S10000x128 := Rect.unit (s := S10000x128) ![0, 0] S10000x128.size inb_S10000x128_S10000x128_0_0
abbrev rW : Rect S128x32 := Rect.unit (s := S128x32) ![0, 0] S128x32.size inb_S128x32_S128x32_0_0
abbrev rB : Rect S1x32 := Rect.unit (s := S1x32) ![0, 0] S1x32.size inb_S1x32_S1x32_0_0
abbrev rO : Rect S10000x32 := Rect.unit (s := S10000x32) ![0, 0] S10000x32.size inb_S10000x32_S10000x32_0_0

/-! ## What the body leaves in the output block -/

/-- The output block after the body, from the three input blocks: its one store, of the skeleton's payload at
    the three loads, read back through the block. -/
def projBlock (x : Vec F S10000x128 .f32) (w : Vec F S128x32 .f32) (b : Vec F S1x32 .f32) : Vec F S10000x32 .f32 :=
  View.canon [⟨rO, k0_pay1 (View.ld x rX) (View.ld w rW) (View.ld b rB)⟩]

/-- The one store covers the block. -/
theorem projBlock_cover (p : Vec F S10000x32 .f32) (y : S10000x32.Idx) :
    ∃ pc ∈ ([⟨rO, p⟩] : List (View.Piece (Elt F) S10000x32 .f32)), y ∈ pc.1.set :=
  View.cover_of_tiled [⟨rO, p⟩] S10000x32.size (by rfl) y

/-! ## The body's triple -/

set_option maxHeartbeats 4000000 in
/-- The body on whole staging memrefs, the inputs' at contents `x`, `w`, `b` and the output's at anything, runs to its
    continuation holding the inputs' as they were and the output's at `projBlock x w b`. -/
theorem sound_kernel (c : Dev nD) (E : Set ℕ) (i : grid0.Coords)
    (arg1 : Memref sig .tc .vmem S10000x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S10000x32 .f32) (harg4 : arg4.IsWhole)
    (x : Vec F S10000x128 .f32) (w : Vec F S128x32 .f32) (b : Vec F S1x32 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projBlock_cover _)

end Cert.Kernel.Run

end
-- ==== Proof.BitsFrame.lean ====
/-
  The run of `Cert.Kernel`'s @main: the region's proof data, the body obligation at every grid point, and the frame run
  around the region.

  The region's four windows stand on x (row block t at point t), on W and on the bias row (each whole, fetched once),
  and on the output (row block t written back at point t). The proof data say: each array is what the region finds
  there; after the body at point t each input's buffer holds its block and the output's buffer holds the body's value
  of the three input blocks; the invariant is the class's (the scoped rest and the generator register, untouched).
  The library's frame run then gives every weakly fair execution of @main to the end, with each window's array at what
  the write-backs left and every other unscoped buffer at what the later host lines leave from that.
-/
import proofs.«106899_j27419071218310_1_alg».proof.Proof.BitsLines
import proofs.«106899_j27419071218310_1_alg».proof.Proof.BitsBody
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data whose array is the region-entry one and whose body leaves the block in
    place. Window 0: the row block of x. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1: W. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2: the bias row. -/
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => projBlock (iblk m c 0 t) (iblk m c 1 t) (iblk m c 2 t)
  Φ _ := Pipeline.ΦA spec0 c
  q _ := fullShare
  owed _ := 0

/-- Its arrays are the region-entry contents. -/
theorem A_eq (c : Dev nD) (w : Fin cfg0.W) : (dats m 0 c).A w = V m c (Pipeline.arrRef spec0 w) := by
  dsimp only [dats]

/-- What the body leaves, window by window. -/
theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) :
    (dats m 0 c).after 3 t = projBlock (iblk m c 0 t) (iblk m c 1 t) (iblk m c 2 t) := by dsimp only [dats]

/-- Each input's current staging buffer holds its block at every point. -/
theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

-- the frame run's implicit arguments are found by unifying its conclusion with this one, which takes unfolding plain
-- definitions in a metavariable's type
set_option backward.isDefEq.respectTransparency.types false in
/-- From any memory with zero counters every weakly fair execution of @main on the TensorCores terminates, and every
    final state has each array of the pipeline at what the write-backs left and every other unscoped buffer as the
    later lines leave it. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-! ## The run's post read at the result and at the arguments -/

/-- In a final state of the run: the result buffer holds what the later lines compute from the region's exit contents,
    and every argument its launch contents — x and W as arrays of input windows, which the region only reads; the edge
    list, the bias vector and the diffusion time as buffers that bypass the region and that no later line writes. -/
theorem run_post (r : PUnit × MemSt nD τ sig (Elt F))
    (h : Pipeline.FramePost cfgs (dats m) 0 (Pipeline.afterTail₀ cfgs (dats m) 0 (V0 m) later) r) (c : Dev nD) :
    r.2.mem ((c.tc : Thread nD τ).loc main_v206) = Pipeline.afterTail₀ cfgs (dats m) 0 (V0 m) later c main_v206
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c).2 main_v206 (Pipeline.mem_restRefs_of main_v206 (by decide) (by decide)),
   ((h c).1 0).trans ((((dats m 0 c).arrAt_in 0 rfl _).trans (A_eq m c 0)).trans (V_arg m (by decide) c)),
   ((h c).2 main_arg1 (Pipeline.mem_restRefs_of main_arg1 (by decide) (by decide))).trans (later_arg m (dats m) c (by decide) (by decide)),
   ((h c).1 1).trans ((((dats m 0 c).arrAt_in 1 rfl _).trans (A_eq m c 1)).trans (V_arg m (by decide) c)),
   ((h c).2 main_arg3 (Pipeline.mem_restRefs_of main_arg3 (by decide) (by decide))).trans (later_arg m (dats m) c (by decide) (by decide)),
   ((h c).2 main_arg4 (Pipeline.mem_restRefs_of main_arg4 (by decide) (by decide))).trans (later_arg m (dats m) c (by decide) (by decide))⟩

/-- The frame: every weakly fair execution of @main terminates, faults nowhere, and leaves the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (run_post m r h c).2) (run_main m ρ)

end Cert.Kernel.Run

end
-- ==== Proof.Bridge.lean ====
/-
  The two idealized programs end with the same result.

  The kernel program's result buffer holds what its later host lines compute from the region's exit contents: the
  region's output array there is the projection x·W + b of the arguments (the ten row blocks the grid writes back tile
  it), and the edge list and the diffusion time are as launched. The reference's fourth stage is the same projection
  of its own arguments. From there the two programs run the same lines, so, the arguments agreeing, the results agree.
-/
import proofs.«106899_j27419071218310_1_alg».proof.Defs
import proofs.«106899_j27419071218310_1_alg».proof.Proof.IdealValue
import proofs.«106899_j27419071218310_1_alg».proof.Proof.IdealTail
import proofs.«106899_j27419071218310_1_alg».proof.Proof.RefHead
import proofs.«106899_j27419071218310_1_alg».proof.Proof.RefRun
import proofs.«106899_j27419071218310_1_alg».proof.Proof.BitsFrame
import proofs.«106899_j27419071218310_1_alg».proof.Proof.Gen.Pre_finite_inputs

noncomputable section

namespace Cert.Proof.Claims

open Idealize.ShloMosaic Idealize.ShloMosaic.TcCoe Idealize.SL.Sem
open Idealize.ShloMosaic.StableHlo (launchContents)
open Cert.KernelIdeal.Run

/-- What the kernel program's later lines leave in its result buffer is what the reference's operations leave in the
    reference's, when the two programs' arguments agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Pipeline.afterTail₀ Cert.KernelIdeal.cfgs (dats m) 0 (V0 m) later c Cert.KernelIdeal.main_v206
      = StableHlo.after (Cert.ReferenceIdeal.Line.ops (F := Ideal)) (launchContents m' c)
          (Proc.devRef .tc Cert.ReferenceIdeal.main_v208) := by
  unfold Pipeline.afterTail₀
  refine later_value _ m' c ?_ ?_ ?_
  · -- the region's output buffer: the projection
    refine (Pipeline.withArrays_arr Cert.KernelIdeal.spec0 Cert.KernelIdeal.Gen.launch0.win.arr_inj c _ _ (3 : Fin 4)).trans ?_
    rw [h0, h2, h3, Cert.ReferenceIdeal.Head.head_eq]
    exact out_final m c
  · -- the edge list: no array of the pipeline, unwritten before the region
    exact (Pipeline.withArrays_of_ne Cert.KernelIdeal.spec0 c (V0 m c) _ Cert.KernelIdeal.main_arg1 (by decide)).trans
      ((V_arg m (by decide) c).trans h1.symm)
  · -- the diffusion time: likewise
    exact (Pipeline.withArrays_of_ne Cert.KernelIdeal.spec0 c (V0 m c) _ Cert.KernelIdeal.main_arg4 (by decide)).trans
      ((V_arg m (by decide) c).trans h4.symm)

theorem frame_k : Cert.frame_Kernel := fun m ρ _ => Cert.Kernel.Run.frame m ρ
theorem frame_ki : Cert.frame_KernelIdeal := fun m ρ _ => Cert.KernelIdeal.Run.frame m ρ
/-- The reference has no region: its frame is its run with the result dropped. -/
theorem frame_ri : Cert.frame_ReferenceIdeal := fun m ρ _ =>
  (θ_run Cert.ReferenceIdeal.defs _ _).mono (fun _ h c =>
      ⟨(h c Cert.ReferenceIdeal.main_arg0).trans (Cert.ReferenceIdeal.Line.kept m c (by decide)),
       (h c Cert.ReferenceIdeal.main_arg1).trans (Cert.ReferenceIdeal.Line.kept m c (by decide)),
       (h c Cert.ReferenceIdeal.main_arg2).trans (Cert.ReferenceIdeal.Line.kept m c (by decide)),
       (h c Cert.ReferenceIdeal.main_arg3).trans (Cert.ReferenceIdeal.Line.kept m c (by decide)),
       (h c Cert.ReferenceIdeal.main_arg4).trans (Cert.ReferenceIdeal.Line.kept m c (by decide))⟩)
    (Cert.ReferenceIdeal.Line.run_fold (F := Ideal) m ρ)

/-- The ideal pass rewrote nothing: the idealization is the program's own text read at the ideal instance. -/
theorem preserves : Cert.preserves_Kernel_KernelIdeal := trivial

/-- Both idealized programs run to the end with the arguments unchanged, and with equal results: the kernel program's
    is read off its frame run, the reference's off the fold of its operations, and the two are one (`result_eq`). -/
theorem algebraic : Cert.algebraic_KernelIdeal_ReferenceIdeal := by
  intro m ρ m' ρ' _ hagree
  refine ⟨fun c => StableHlo.after (Cert.ReferenceIdeal.Line.ops (F := Ideal)) (launchContents m' c)
      (Proc.devRef .tc Cert.ReferenceIdeal.main_v208), ?_, ?_⟩
  · refine (θ_run Cert.KernelIdeal.defs _ _).mono (fun r h c => ?_) (run_main m ρ)
    obtain ⟨hv, ha⟩ := run_post m r h c
    obtain ⟨h0, h1, h2, h3, h4⟩ := hagree c
    exact ⟨hv.trans (result_eq m m' c h0 h1 h2 h3 h4), ha⟩
  · exact (θ_run Cert.ReferenceIdeal.defs _ _).mono (fun _ h c =>
      ⟨h c Cert.ReferenceIdeal.main_v208,
       (h c Cert.ReferenceIdeal.main_arg0).trans (Cert.ReferenceIdeal.Line.kept m' c (by decide)),
       (h c Cert.ReferenceIdeal.main_arg1).trans (Cert.ReferenceIdeal.Line.kept m' c (by decide)),
       (h c Cert.ReferenceIdeal.main_arg2).trans (Cert.ReferenceIdeal.Line.kept m' c (by decide)),
       (h c Cert.ReferenceIdeal.main_arg3).trans (Cert.ReferenceIdeal.Line.kept m' c (by decide)),
       (h c Cert.ReferenceIdeal.main_arg4).trans (Cert.ReferenceIdeal.Line.kept m' c (by decide))⟩)
      (Cert.ReferenceIdeal.Line.run_fold (F := Ideal) m' ρ')

end Cert.Proof.Claims

end
-- ==== Proof.lean ====
/-
  The proof of `Cert.Claim`: a linear projection x·W + b computed block by block by a kernel, followed by a graph
  diffusion computed by host operations, against the same projection and the same diffusion computed by host operations
  alone.

  The kernel program is one host line (the bias laid down as a row), one region over ten row blocks, and 255 host lines
  after it. Its frame — at the word level and at the ideal instance — is the library's frame run around a region:
  the body obligation from the body's triple at a generic point, and the later lines checked to touch only unscoped
  buffers, to allocate nothing and to write neither an argument nor an array of the region (Proof/*Lines, *Body,
  *Frame). At the ideal instance the region's output array is the projection of the arguments (Proof/IdealPayload,
  IdealValue); the reference's fourth stage is the same projection (Proof/RefHead); the lines that follow are the same
  in both programs, so the results are the same composition of the same operations (Proof/IdealTail, Bridge). The ideal
  pass rewrote nothing, so the idealization claim is trivial. No law of the extended reals beyond reading each operation
  at an entry is used, and the precondition is never opened.
-/
import proofs.«106899_j27419071218310_1_alg».proof.Defs
import proofs.«106899_j27419071218310_1_alg».proof.Proof.Bridge
import proofs.«106899_j27419071218310_1_alg».proof.Proof.Gen.Kernel
import proofs.«106899_j27419071218310_1_alg».proof.Proof.Gen.KernelIdeal
import proofs.«106899_j27419071218310_1_alg».proof.Proof.Gen.ReferenceIdeal
import proofs.«106899_j27419071218310_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
